-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S5000x128 : Shape := ⟨2, ![5000, 128]⟩
abbrev S5000x1 : Shape := ⟨2, ![5000, 1]⟩
abbrev S650000x128 : Shape := ⟨2, ![650000, 128]⟩
abbrev S1x128 : Shape := ⟨2, ![1, 128]⟩

abbrev nBuf : Space → Nat
  | .hbm => 62
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000x128, .f32⟩
  | .hbm, ⟨41, _⟩ => ⟨S_, .f32⟩
  | .hbm, ⟨42, _⟩ => ⟨S50000x128, .f32⟩
  | .hbm, ⟨43, _⟩ => ⟨S650000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S_, .f32⟩
  | .hbm, ⟨57, _⟩ => ⟨S50000x128, .f32⟩
  | .hbm, ⟨58, _⟩ => ⟨S650000x1, .i32⟩
  | .hbm, ⟨59, _⟩ => ⟨S50000x128, .f32⟩
  | .hbm, ⟨60, _⟩ => ⟨S1x128, .f32⟩
  | .hbm, ⟨61, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x128, .f32⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000, .f32⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000, .f32⟩
  | .hbm, ⟨49, _⟩ => ⟨S650000, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x1, .f32⟩
  | .hbm, ⟨60, _⟩ => ⟨S650000x128, .f32⟩
  | .hbm, ⟨61, _⟩ => ⟨S650000x128, .f32⟩
  | .hbm, ⟨62, _⟩ => ⟨S_, .f32⟩
  | .hbm, ⟨63, _⟩ => ⟨S50000x128, .f32⟩
  | .hbm, ⟨64, _⟩ => ⟨S650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S650000, .i32⟩
  | .hbm, ⟨75, _⟩ => ⟨S650000, .i1⟩
  | .hbm, ⟨76, _⟩ => ⟨S_, .i32⟩
  | .hbm, ⟨77, _⟩ => ⟨S650000, .i32⟩
  | .hbm, ⟨78, _⟩ => ⟨S650000, .i32⟩
  | .hbm, ⟨79, _⟩ => ⟨S650000, .i32⟩
  | .hbm, ⟨80, _⟩ => ⟨S650000x1, .i32⟩
  | .hbm, ⟨81, _⟩ => ⟨S650000, .f32⟩
  | .hbm, ⟨82, _⟩ => ⟨S_, .i32⟩
  | .hbm, ⟨83, _⟩ => ⟨S650000, .i32⟩
  | .hbm, ⟨84, _⟩ => ⟨S650000, .i1⟩
  | .hbm, ⟨85, _⟩ => ⟨S_, .i32⟩
  | .hbm, ⟨86, _⟩ => ⟨S650000, .i32⟩
  | .hbm, ⟨87, _⟩ => ⟨S650000, .i32⟩
  | .hbm, ⟨88, _⟩ => ⟨S650000, .i32⟩
  | .hbm, ⟨89, _⟩ => ⟨S650000x1, .i32⟩
  | .hbm, ⟨90, _⟩ => ⟨S650000, .f32⟩
  | .hbm, ⟨91, _⟩ => ⟨S650000, .f32⟩
  | .hbm, ⟨92, _⟩ => ⟨S_, .i32⟩
  | .hbm, ⟨93, _⟩ => ⟨S650000, .i32⟩
  | .hbm, ⟨94, _⟩ => ⟨S650000, .i1⟩
  | .hbm, ⟨95, _⟩ => ⟨S_, .i32⟩
  | .hbm, ⟨96, _⟩ => ⟨S650000, .i32⟩
  | .hbm, ⟨97, _⟩ => ⟨S650000, .i32⟩
  | .hbm, ⟨98, _⟩ => ⟨S650000, .i32⟩
  | .hbm, ⟨99, _⟩ => ⟨S650000x1, .i32⟩
  | .hbm, ⟨100, _⟩ => ⟨S650000x128, .f32⟩
  | .hbm, ⟨101, _⟩ => ⟨S650000x1, .f32⟩
  | .hbm, ⟨102, _⟩ => ⟨S650000x128, .f32⟩
  | .hbm, ⟨103, _⟩ => ⟨S650000x128, .f32⟩
  | .hbm, ⟨104, _⟩ => ⟨S_, .f32⟩
  | .hbm, ⟨105, _⟩ => ⟨S50000x128, .f32⟩
  | .hbm, ⟨106, _⟩ => ⟨S650000x1, .i32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  dot_S50000x128_S128x128_S50000x128_1_0_0_1_n_n_wf : DotDims.WF S50000x128 S128x128 S50000x128 [1] [0] [0] [1] [] []
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.GcnSpec.lean ====
/-
  Two graph-convolution layers over a list of directed edges, in the two arrangements the two programs compute,
  and the law that joins them.

  The graph has 50000 nodes and 650000 edges. Edge `e` carries two 32-bit index words, `src e` and `dst e`. A
  scatter-add into the node rows lands edge `e` on row `dst e` read as a signed integer when that lies in
  `[0, 50000)` and drops it otherwise (`hitOf`); a row gather reads row `w` read signed and clamped into
  `[0, 49999]` (`rowOf`), after a negative word has been wrapped by `+ 50000` (`wrap`). An edge that lands on row `n`
  has `dst e = n` as a non-negative word, which the wrap leaves alone and the clamp reads as `n`
  (`rowOf_wrap_of_hit`): the destination-side factor of the edge weight is then the landing row's own factor.

  One layer, with `d` the per-node factor, `γ e` the source row of edge `e`, `δ e` its destination row:
    reference   out[n, j] = max (∑_{e lands on n} (∑_k X[γ e, k] · W[k, j]) · (d[γ e] · d[δ e]) + b[j]) 0
    kernel      out[n, j] = max (d[n] · ∑_{e lands on n} (∑_k (X[γ e, k] · d[γ e]) · W[k, j]) + b[j]) 0
  Over the real numbers the two agree: `d[δ e] = d[n]` on the edges that land on `n`, and a factor moves across a
  finite sum. On the extended reals that move fails at the infinities, so the law is proved for entries that are
  real numbers, by carrying every array back to the reals.
-/
import Idealize.ShloMosaic.Lib.ValueIdx
import Idealize.ShloMosaic.PureOps.Ideal.Laws

noncomputable section

namespace Cert.Gcn

open Idealize.ShloMosaic Idealize.ShloMosaic.ValueIdx

/-! ## Index words -/

/-- The row a gather over 50000 rows reads for the index word `w`: read signed, clamped into `[0, 49999]`. -/
def rowOf (w : BitVec 32) : Fin 50000 := ⟨min w.toInt.toNat 49999, by omega⟩

/-- The row a scatter into 50000 rows lands on for the index word `w`: read signed; outside `[0, 50000)` it is dropped. -/
def hitOf (w : BitVec 32) : Option (Fin 50000) :=
  if h : 0 ≤ w.toInt ∧ w.toInt < 50000 then some ⟨w.toInt.toNat, by omega⟩ else none

/-- A negative index word counts from the end: `w + 50000` when `w < 0`, else `w`. -/
def wrap (w : BitVec 32) : BitVec 32 := Scalar.select (IntOp.cmpi .slt w 0#32) (IntOp.addi w 50000#32) w

/-- A word that lands on row `n` is non-negative, so the wrap leaves it and the clamped read is `n`. -/
theorem rowOf_wrap_of_hit {w : BitVec 32} {n : Fin 50000} (h : hitOf w = some n) : rowOf (wrap w) = n := by
  unfold hitOf at h
  split at h
  · rename_i hw
    have hn : n = ⟨w.toInt.toNat, by omega⟩ := (Option.some.inj h).symm
    have hs : IntOp.cmpi .slt w 0#32 = 0#1 := by
      unfold IntOp.cmpi
      have : w.slt 0#32 = false := by
        rw [BitVec.slt_eq_decide]
        have h0 : (0#32 : BitVec 32).toInt = 0 := by decide
        rw [h0]; exact decide_eq_false (by omega)
      rw [this]; rfl
    unfold wrap
    rw [hs, select_zero, hn]
    unfold rowOf
    exact Fin.ext (by show min w.toInt.toNat 49999 = w.toInt.toNat; omega)
  · exact absurd h (by simp)

/-! ## The layers, over any carrier with the three operations -/

section Layers

variable {R : Type} [AddCommMonoid R] [Mul R] [Max R]
variable (d : (⟨1, ![50000]⟩ : Shape).Idx → R) (src dst : IVec ⟨1, ![650000]⟩ 32)

/-- The edges that land on node `n`. -/
def into (n : Fin 50000) : Finset (Fin 650000) := Finset.univ.filter fun e => hitOf (dst (ix1 e)) = some n

/-- The source row of edge `e`. -/
def srcRow (e : Fin 650000) : Fin 50000 := rowOf (wrap (src (ix1 e)))
/-- The destination row of edge `e` as a gather reads it. -/
def dstRow (e : Fin 650000) : Fin 50000 := rowOf (wrap (dst (ix1 e)))

theorem dstRow_of_mem {n : Fin 50000} {e : Fin 650000} (h : e ∈ into dst n) : dstRow dst e = n :=
  rowOf_wrap_of_hit (Finset.mem_filter.mp h).2

/-- One layer as the reference computes it: project, weigh every edge's message by both end factors, add up, bias, clip. -/
def refLayer (X : (⟨2, ![50000, 128]⟩ : Shape).Idx → R) (W : (⟨2, ![128, 128]⟩ : Shape).Idx → R)
    (b : (⟨1, ![128]⟩ : Shape).Idx → R) : (⟨2, ![50000, 128]⟩ : Shape).Idx → R := fun i =>
  max ((∑ e ∈ into dst (i 0), (∑ k : Fin 128, X (ix2 (srcRow src e) k) * W (ix2 k (i 1)))
      * (d (ix1 (srcRow src e)) * d (ix1 (dstRow dst e)))) + b (ix1 (i 1))) 0

/-- The first projection with the node factor applied to the rows first. -/
def preScale (X : (⟨2, ![50000, 128]⟩ : Shape).Idx → R) (W : (⟨2, ![128, 128]⟩ : Shape).Idx → R) :
    (⟨2, ![50000, 128]⟩ : Shape).Idx → R := fun i =>
  ∑ k : Fin 128, (X (ix2 (i 0) k) * d (ix1 (i 0))) * W (ix2 k (i 1))

/-- The unweighted aggregation: the source rows of the edges that land on a node, added up. -/
def gatherSum (Y : (⟨2, ![50000, 128]⟩ : Shape).Idx → R) : (⟨2, ![50000, 128]⟩ : Shape).Idx → R := fun i =>
  ∑ e ∈ into dst (i 0), Y (ix2 (srcRow src e) (i 1))

/-- Between the layers: scale, bias, clip, scale again, project. -/
def midLayer (A : (⟨2, ![50000, 128]⟩ : Shape).Idx → R) (b : (⟨1, ![128]⟩ : Shape).Idx → R)
    (W : (⟨2, ![128, 128]⟩ : Shape).Idx → R) : (⟨2, ![50000, 128]⟩ : Shape).Idx → R := fun i =>
  ∑ k : Fin 128, (d (ix1 (i 0)) * max (d (ix1 (i 0)) * A (ix2 (i 0) k) + b (ix1 k)) 0) * W (ix2 k (i 1))

/-- After the last aggregation: scale, bias, clip. -/
def postScale (A : (⟨2, ![50000, 128]⟩ : Shape).Idx → R) (b : (⟨1, ![128]⟩ : Shape).Idx → R) :
    (⟨2, ![50000, 128]⟩ : Shape).Idx → R := fun i =>
  max (d (ix1 (i 0)) * A i + b (ix1 (i 1))) 0

/-- The two layers as the kernel's program arranges them. -/
def kernelNet (x : (⟨2, ![50000, 128]⟩ : Shape).Idx → R) (W1 : (⟨2, ![128, 128]⟩ : Shape).Idx → R)
    (b1 : (⟨1, ![128]⟩ : Shape).Idx → R) (W2 : (⟨2, ![128, 128]⟩ : Shape).Idx → R) (b2 : (⟨1, ![128]⟩ : Shape).Idx → R) :
    (⟨2, ![50000, 128]⟩ : Shape).Idx → R :=
  postScale d (gatherSum src dst (midLayer d (gatherSum src dst (preScale d x W1)) b1 W2)) b2

/-- The two layers as the reference arranges them. -/
def referenceNet (x : (⟨2, ![50000, 128]⟩ : Shape).Idx → R) (W1 : (⟨2, ![128, 128]⟩ : Shape).Idx → R)
    (b1 : (⟨1, ![128]⟩ : Shape).Idx → R) (W2 : (⟨2, ![128, 128]⟩ : Shape).Idx → R) (b2 : (⟨1, ![128]⟩ : Shape).Idx → R) :
    (⟨2, ![50000, 128]⟩ : Shape).Idx → R :=
  refLayer d src dst (refLayer d src dst x W1 b1) W2 b2

end Layers

/-! ## Over the reals the two arrangements agree -/

section Real

variable (d : (⟨1, ![50000]⟩ : Shape).Idx → ℝ) (src dst : IVec ⟨1, ![650000]⟩ 32)

/-- One layer: the landing row's factor moves out of the sum over the edges, the source row's factor out of the
    contraction. The rows enter already scaled by the node factor (`Xs`). -/
theorem layer_real (X Xs : (⟨2, ![50000, 128]⟩ : Shape).Idx → ℝ) (W : (⟨2, ![128, 128]⟩ : Shape).Idx → ℝ)
    (hXs : ∀ (s : Fin 50000) (k : Fin 128), Xs (ix2 s k) = X (ix2 s k) * d (ix1 s)) (n : Fin 50000) (j : Fin 128) :
    d (ix1 n) * ∑ e ∈ into dst n, ∑ k : Fin 128, Xs (ix2 (srcRow src e) k) * W (ix2 k j)
      = ∑ e ∈ into dst n, (∑ k : Fin 128, X (ix2 (srcRow src e) k) * W (ix2 k j))
          * (d (ix1 (srcRow src e)) * d (ix1 (dstRow dst e))) := by
  rw [Finset.mul_sum]
  refine Finset.sum_congr rfl fun e he => ?_
  rw [dstRow_of_mem dst he, Finset.mul_sum, Finset.sum_mul]
  refine Finset.sum_congr rfl fun k _ => ?_
  rw [hXs]; ring

theorem kernelNet_eq_referenceNet_real (x : (⟨2, ![50000, 128]⟩ : Shape).Idx → ℝ) (W1 : (⟨2, ![128, 128]⟩ : Shape).Idx → ℝ)
    (b1 : (⟨1, ![128]⟩ : Shape).Idx → ℝ) (W2 : (⟨2, ![128, 128]⟩ : Shape).Idx → ℝ) (b2 : (⟨1, ![128]⟩ : Shape).Idx → ℝ) :
    kernelNet d src dst x W1 b1 W2 b2 = referenceNet d src dst x W1 b1 W2 b2 := by
  -- the hidden layer, both ways
  have h1 : ∀ (s : Fin 50000) (k : Fin 128),
      max (d (ix1 s) * gatherSum src dst (preScale d x W1) (ix2 s k) + b1 (ix1 k)) 0
        = refLayer d src dst x W1 b1 (ix2 s k) := fun s k =>
    congrArg (fun t => max (t + b1 (ix1 k)) 0)
      (layer_real d src dst x (fun i => x i * d (ix1 (i 0))) W1 (fun _ _ => rfl) s k)
  funext i
  obtain ⟨n, j, rfl⟩ : ∃ (n : Fin 50000) (j : Fin 128), i = ix2 n j := ⟨i 0, i 1, eq_ix2 i⟩
  -- the output layer: the hidden rows enter scaled by the node factor
  have h2 := layer_real d src dst (refLayer d src dst x W1 b1)
    (fun p => d (ix1 (p 0)) * max (d (ix1 (p 0)) * gatherSum src dst (preScale d x W1) p + b1 (ix1 (p 1))) 0) W2
    (fun s k => (congrArg (fun t => d (ix1 s) * t) (h1 s k)).trans (mul_comm _ _)) n j
  exact congrArg (fun t => max (t + b2 (ix1 j)) 0) h2

end Real

/-! ## Back on the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  Monotone.map_max EReal.coe_strictMono.monotone

section Lift

variable (d : (⟨1, ![50000]⟩ : Shape).Idx → ℝ) (src dst : IVec ⟨1, ![650000]⟩ 32)

theorem refLayer_coe (X : (⟨2, ![50000, 128]⟩ : Shape).Idx → ℝ) (W : (⟨2, ![128, 128]⟩ : Shape).Idx → ℝ)
    (b : (⟨1, ![128]⟩ : Shape).Idx → ℝ) :
    refLayer (fun n => (d n : EReal)) src dst (fun i => (X i : EReal)) (fun i => (W i : EReal)) (fun i => (b i : EReal))
      = fun i => ((refLayer d src dst X W b i : ℝ) : EReal) := by
  funext i
  simp only [refLayer, coe_max, EReal.coe_add, coe_sum, EReal.coe_mul, EReal.coe_zero]

theorem preScale_coe (X : (⟨2, ![50000, 128]⟩ : Shape).Idx → ℝ) (W : (⟨2, ![128, 128]⟩ : Shape).Idx → ℝ) :
    preScale (fun n => (d n : EReal)) (fun i => (X i : EReal)) (fun i => (W i : EReal))
      = fun i => ((preScale d X W i : ℝ) : EReal) := by
  funext i
  simp only [preScale, coe_sum, EReal.coe_mul]

theorem gatherSum_coe (Y : (⟨2, ![50000, 128]⟩ : Shape).Idx → ℝ) :
    gatherSum src dst (fun i => (Y i : EReal)) = fun i => ((gatherSum src dst Y i : ℝ) : EReal) := by
  funext i
  simp only [gatherSum, coe_sum]

theorem midLayer_coe (A : (⟨2, ![50000, 128]⟩ : Shape).Idx → ℝ) (b : (⟨1, ![128]⟩ : Shape).Idx → ℝ)
    (W : (⟨2, ![128, 128]⟩ : Shape).Idx → ℝ) :
    midLayer (fun n => (d n : EReal)) (fun i => (A i : EReal)) (fun i => (b i : EReal)) (fun i => (W i : EReal))
      = fun i => ((midLayer d A b W i : ℝ) : EReal) := by
  funext i
  simp only [midLayer, coe_max, EReal.coe_add, coe_sum, EReal.coe_mul, EReal.coe_zero]

theorem postScale_coe (A : (⟨2, ![50000, 128]⟩ : Shape).Idx → ℝ) (b : (⟨1, ![128]⟩ : Shape).Idx → ℝ) :
    postScale (fun n => (d n : EReal)) (fun i => (A i : EReal)) (fun i => (b i : EReal))
      = fun i => ((postScale d A b i : ℝ) : EReal) := by
  funext i
  simp only [postScale, coe_max, EReal.coe_add, EReal.coe_mul, EReal.coe_zero]

end Lift

/-- THE LAW: on the extended reals the kernel's arrangement of the two layers equals the reference's, when the node
    factors, the features, the weights and the biases are real numbers. -/
theorem kernelNet_eq_referenceNet (d : (⟨1, ![50000]⟩ : Shape).Idx → EReal) (src dst : IVec ⟨1, ![650000]⟩ 32)
    (x : (⟨2, ![50000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (hd : ∀ n, ∃ r : ℝ, d n = (r : EReal)) (hx : ∀ i, ∃ r : ℝ, x i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal)) :
    kernelNet d src dst x W1 b1 W2 b2 = referenceNet d src dst x W1 b1 W2 b2 := by
  choose dr hd using hd
  choose xr hx using hx
  choose W1r hW1 using hW1
  choose b1r hb1 using hb1
  choose W2r hW2 using hW2
  choose b2r hb2 using hb2
  obtain rfl : d = fun n => (dr n : EReal) := funext hd
  obtain rfl : x = fun i => (xr i : EReal) := funext hx
  obtain rfl : W1 = fun i => (W1r i : EReal) := funext hW1
  obtain rfl : b1 = fun i => (b1r i : EReal) := funext hb1
  obtain rfl : W2 = fun i => (W2r i : EReal) := funext hW2
  obtain rfl : b2 = fun i => (b2r i : EReal) := funext hb2
  unfold kernelNet referenceNet
  rw [preScale_coe, gatherSum_coe, midLayer_coe, gatherSum_coe, postScale_coe, refLayer_coe, refLayer_coe]
  funext i
  exact congrArg _ (congrFun (kernelNet_eq_referenceNet_real dr src dst xr W1r b1r W2r b2r) i)

end Cert.Gcn

end
-- ==== Proof.KRun.lean ====
/-
  The run of the kernel's program with its result named.

  The program is eight segments: three stretches of host operations, the first pallas_call, a stretch, the second
  pallas_call, a stretch, the third pallas_call. Each segment is entered from the buffer contents the one before left,
  and the last leaves every buffer at the contents `W8`. Every weakly fair execution therefore terminates with the
  result buffer at `W8`'s entry for it and the six argument arrays as launched.
-/
import proofs.«173331_j20340965114257_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates, nothing faulting, with the result array at the last
    boundary's contents and the argument arrays unchanged. -/
theorem run_named : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.KBody.lean ====
/-
  The three kernel bodies read at an index, on the extended reals.

  Each body works on a block of 5000 rows. With `x` the block of 128-wide rows, `dv` the block's column of node
  factors, `w` a 128 × 128 weight matrix and `bv` a bias row:
    first body    out[p, q] = ∑_k (x[p, k] · dv[p]) · w[k, q]
    second body   out[p, q] = ∑_k (dv[p] · max (dv[p] · x[p, k] + bv[k]) 0) · w[k, q]
    third body    out[p, q] = max (dv[p] · x[p, q] + bv[q]) 0
  A change of float format is the identity here, and the matrix unit into the zero accumulator is the plain sum over
  the contracted coordinate.
-/
import proofs.«173331_j20340965114257_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- A column `[a, 1]` broadcast along the lanes reads its row's entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix unit `[5000, 128] × [128, 128]` into the zero accumulator, at `(p, q)`: the sum over the contracted
    coordinate. -/
theorem matmul_zero_apply {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs0 _ _
      | ⟨1, _⟩ => exact (lhs1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs0 _ _).trans hk
      | ⟨1, _⟩ => exact rhs1 _ _)
  rw [el, er]

/-- The block's column of node factors, broadcast along the lanes. -/
theorem col_apply (dv : Vec Ideal S5000x1 .f32) (p : Fin 5000) (q : Fin 128) :
    broadcastTo S5000x128 (shapeCast S5000x1 dv shapeCasts_S5000x1_S5000x1) broadcasts_S5000x1_S5000x128 (ix2 p q)
      = dv (ix2 p (0 : Fin 1)) := by
  rw [shapeCast_self]
  exact broadcastTo_a1_ab_apply dv broadcasts_S5000x1_S5000x128 p q

/-- The bias row, broadcast along the rows. -/
theorem row_apply (bv : Vec Ideal S1x128 .f32) (p : Fin 5000) (q : Fin 128) :
    broadcastTo S5000x128 (shapeCast S1x128 bv shapeCasts_S1x128_S1x128) broadcasts_S1x128_S5000x128 (ix2 p q)
      = bv (ix2 (0 : Fin 1) q) := by
  rw [shapeCast_self]
  exact broadcastTo_1b_ab_apply bv broadcasts_S1x128_S5000x128 p q

/-- The first body at `(p, q)`. -/
theorem pay0_apply (x : Vec Ideal S5000x128 .f32) (dv : Vec Ideal S5000x1 .f32) (w : Vec Ideal S128x128 .f32)
    (p : Fin 5000) (q : Fin 128) :
    k0_pay1 (F := Ideal) x dv w (ix2 p q) = ∑ k : Fin 128, (x (ix2 p k) * dv (ix2 p (0 : Fin 1))) * w (ix2 k q) := by
  unfold k0_pay1
  refine (matmul_zero_apply _ _ p q).trans ?_
  refine Finset.sum_congr rfl fun k _ => ?_
  show (x (ix2 p k) * broadcastTo S5000x128 (shapeCast S5000x1 dv shapeCasts_S5000x1_S5000x1) broadcasts_S5000x1_S5000x128 (ix2 p k)) * w (ix2 k q) = _
  rw [col_apply]

/-- The second body at `(p, q)`. -/
theorem pay1_apply (dv : Vec Ideal S5000x1 .f32) (x : Vec Ideal S5000x128 .f32) (bv : Vec Ideal S1x128 .f32)
    (w : Vec Ideal S128x128 .f32) (p : Fin 5000) (q : Fin 128) :
    k1_pay1 (F := Ideal) dv x bv dv w (ix2 p q)
      = ∑ k : Fin 128, (dv (ix2 p (0 : Fin 1)) * max (dv (ix2 p (0 : Fin 1)) * x (ix2 p k) + bv (ix2 (0 : Fin 1) k)) 0) * w (ix2 k q) := by
  unfold k1_pay1
  refine (matmul_zero_apply _ _ p q).trans ?_
  refine Finset.sum_congr rfl fun k _ => ?_
  show (broadcastTo S5000x128 (shapeCast S5000x1 dv shapeCasts_S5000x1_S5000x1) broadcasts_S5000x1_S5000x128 (ix2 p k)
      * max (broadcastTo S5000x128 (shapeCast S5000x1 dv shapeCasts_S5000x1_S5000x1) broadcasts_S5000x1_S5000x128 (ix2 p k)
          * shapeCast S5000x128 x shapeCasts_S5000x128_S5000x128 (ix2 p k)
        + broadcastTo S5000x128 (shapeCast S1x128 bv shapeCasts_S1x128_S1x128) broadcasts_S1x128_S5000x128 (ix2 p k))
        (Ideal.ofBits .f32 0x00000000#32)) * w (ix2 k q) = _
  rw [col_apply, row_apply, shapeCast_self, Ideal.ofBits_zero_f32]

/-- The third body at `(p, q)`. -/
theorem pay2_apply (dv : Vec Ideal S5000x1 .f32) (x : Vec Ideal S5000x128 .f32) (bv : Vec Ideal S1x128 .f32)
    (p : Fin 5000) (q : Fin 128) :
    k2_pay1 (F := Ideal) dv x bv (ix2 p q)
      = max (dv (ix2 p (0 : Fin 1)) * x (ix2 p q) + bv (ix2 (0 : Fin 1) q)) 0 := by
  unfold k2_pay1
  show max (broadcastTo S5000x128 (shapeCast S5000x1 dv shapeCasts_S5000x1_S5000x1) broadcasts_S5000x1_S5000x128 (ix2 p q)
          * shapeCast S5000x128 x shapeCasts_S5000x128_S5000x128 (ix2 p q)
        + broadcastTo S5000x128 (shapeCast S1x128 bv shapeCasts_S1x128_S1x128) broadcasts_S1x128_S5000x128 (ix2 p q))
        (Ideal.ofBits .f32 0x00000000#32) = _
  rw [col_apply, row_apply, shapeCast_self, Ideal.ofBits_zero_f32]

end Cert.KernelIdeal.Body

end
-- ==== Proof.KRegion0.lean ====
/-
  What the first pallas_call leaves in its result array.

  The grid has ten points; point `t` works on rows `5000·t … 5000·t + 4999` of the feature array and of the column of
  node factors, on the whole weight matrix, and writes the same rows of the result. A row of the result depends on
  the same row of the features and of the factors only, so the ten blocks are the restrictions of one function of
  the whole arrays: entry `(r, q)` is `∑_k (X[r, k] · D[r]) · W[k, q]`. The blocks tile the array.
-/
import proofs.«173331_j20340965114257_2_alg».proof.Proof.Gen.KernelIdeal.Frame
import proofs.«173331_j20340965114257_2_alg».proof.Proof.KBody

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Every row scaled by its node factor, then projected. -/
def G (X : S50000x128.Idx → EReal) (D : S50000x1.Idx → EReal) (Wt : S128x128.Idx → EReal) : S50000x128.Idx → EReal :=
  fun i => ∑ k : Fin 128, (X (ix2 (i 0) k) * D (ix2 (i 0) (0 : Fin 1))) * Wt (ix2 k (i 1))

theorem hz : (![0, 0] : Fin 2 → Nat) = fun _ => 0 := funext fun a => by fin_cases a <;> rfl

/-- The printed index maps over the grid: the row windows move with the point, the weight window stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `5000·t + p` of the array. -/
def row (t : Fin cfg0.N) (p : Fin 5000) : Fin 50000 := ⟨t.val * 5000 + p.val, by have ht : t.val < 10 := t.isLt; have hp := p.isLt; show _ < 50000; omega⟩

theorem blockX (c : Dev nD) (t : Fin cfg0.N) (p : Fin 5000) (k : Fin 128) :
    iblk0 V c 0 t (ix2 p k) = V c main_arg0 (ix2 (row t p) k) := by
  obtain ⟨e00, e01, -⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem blockD (c : Dev nD) (t : Fin cfg0.N) (p : Fin 5000) :
    iblk0 V c 1 t (ix2 p (0 : Fin 1)) = V c main_v17 (ix2 (row t p) (0 : Fin 1)) := by
  obtain ⟨-, -, e10, e11, -⟩ := idx_facts t
  show V c main_v17 (((cfg0.win 1).blk t).view.emb (ix2 p (0 : Fin 1))) = V c main_v17 (ix2 (row t p) (0 : Fin 1))
  refine congrArg (V c main_v17) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

theorem blockW (c : Dev nD) (t : Fin cfg0.N) (k q : Fin 128) :
    iblk0 V c 2 t (ix2 k q) = V c main_arg2 (ix2 k q) := by
  obtain ⟨-, -, -, -, e20, e21, -⟩ := idx_facts t
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem blockOut (t : Fin cfg0.N) (p : Fin 5000) (q : Fin 128) :
    ((cfg0.win 3).blk t).view.emb (ix2 p q) = ix2 (row t p) q := by
  obtain ⟨-, -, -, -, -, -, e30, e31⟩ := idx_facts t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-- WHAT POINT `t` WRITES BACK is block `t` of `G` of the arrays as the region finds them. -/
theorem flushed_eq (c : Dev nD) (t : Fin cfg0.N) :
    (dat0 V c).flushed 3 t = ((cfg0.win 3).blk t).view.read (Elt Ideal) (G (V c main_arg0) (V c main_v17) (V c main_arg2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = G (V c main_arg0) (V c main_v17) (V c main_arg2) (((cfg0.win 3).blk t).view.emb (ix2 p q))
  refine (Body.pay0_apply (iblk0 V c 0 t) (iblk0 V c 1 t) (iblk0 V c 2 t) p q).trans ?_
  rw [blockOut t p q, blockD V c t p]
  unfold G
  refine Finset.sum_congr rfl fun k _ => ?_
  rw [blockX V c t p k, blockW V c t k q]

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- The ten blocks tile the array: row `r` is in the block of point `r / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, by show _ < 10; omega⟩
  obtain ⟨-, -, -, -, -, -, e30, e31⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY after the region. -/
theorem final (c : Dev nD) : (dat0 V c).arrAt 3 cfg0.N = G (V c main_arg0) (V c main_v17) (V c main_arg2) :=
  (dat0 V c).arrAt_eq_of_cover 3 (G (V c main_arg0) (V c main_v17) (V c main_arg2)) (fun t _ => flushed_eq V c t) cover

end Cert.KernelIdeal.Region0

end
-- ==== Proof.KRegion1.lean ====
/-
  What the second pallas_call leaves in its result array.

  Point `t` of its ten-point grid works on rows `5000·t … 5000·t + 4999` of the aggregated array and of the column of
  node factors, on the whole bias row and weight matrix, and writes the same rows of the result. Entry `(r, q)` of the
  result is `∑_k (D[r] · max (D[r] · A[r, k] + b[k]) 0) · W[k, q]`: one function of the whole arrays, whose restrictions
  the ten blocks are. The blocks tile the array.
-/
import proofs.«173331_j20340965114257_2_alg».proof.Proof.Gen.KernelIdeal.Frame
import proofs.«173331_j20340965114257_2_alg».proof.Proof.KBody

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Scale, bias, clip, scale again, project. -/
def G (A : S50000x128.Idx → EReal) (D : S50000x1.Idx → EReal) (Bv : S1x128.Idx → EReal) (Wt : S128x128.Idx → EReal) :
    S50000x128.Idx → EReal :=
  fun i => ∑ k : Fin 128, (D (ix2 (i 0) (0 : Fin 1)) * max (D (ix2 (i 0) (0 : Fin 1)) * A (ix2 (i 0) k) + Bv (ix2 (0 : Fin 1) k)) 0)
    * Wt (ix2 k (i 1))

theorem hz : (![0, 0] : Fin 2 → Nat) = fun _ => 0 := funext fun a => by fin_cases a <;> rfl

/-- The printed index maps over the grid: the row windows move with the point, the bias and weight windows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of point `t`'s block is row `5000·t + p` of the array. -/
def row (t : Fin cfg1.N) (p : Fin 5000) : Fin 50000 := ⟨t.val * 5000 + p.val, by have ht : t.val < 10 := t.isLt; have hp := p.isLt; show _ < 50000; omega⟩

theorem blockA (c : Dev nD) (t : Fin cfg1.N) (p : Fin 5000) (k : Fin 128) :
    iblk1 V c 0 t (ix2 p k) = V c main_v28 (ix2 (row t p) k) := by
  obtain ⟨e00, e01, -⟩ := idx_facts t
  show V c main_v28 (((cfg1.win 0).blk t).view.emb (ix2 p k)) = V c main_v28 (ix2 (row t p) k)
  refine congrArg (V c main_v28) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem blockD (c : Dev nD) (t : Fin cfg1.N) (p : Fin 5000) :
    iblk1 V c 1 t (ix2 p (0 : Fin 1)) = V c main_v17 (ix2 (row t p) (0 : Fin 1)) := by
  obtain ⟨-, -, e10, e11, -⟩ := idx_facts t
  show V c main_v17 (((cfg1.win 1).blk t).view.emb (ix2 p (0 : Fin 1))) = V c main_v17 (ix2 (row t p) (0 : Fin 1))
  refine congrArg (V c main_v17) (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

theorem blockB (c : Dev nD) (t : Fin cfg1.N) (k : Fin 128) :
    iblk1 V c 2 t (ix2 (0 : Fin 1) k) = V c main_v29 (ix2 (0 : Fin 1) k) := by
  obtain ⟨-, -, -, -, e20, e21, -⟩ := idx_facts t
  show V c main_v29 (((cfg1.win 2).blk t).view.emb (ix2 (0 : Fin 1) k)) = V c main_v29 (ix2 (0 : Fin 1) k)
  refine congrArg (V c main_v29) (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

theorem blockW (c : Dev nD) (t : Fin cfg1.N) (k q : Fin 128) :
    iblk1 V c 3 t (ix2 k q) = V c main_arg4 (ix2 k q) := by
  obtain ⟨-, -, -, -, -, -, e30, e31, -⟩ := idx_facts t
  show V c main_arg4 (((cfg1.win 3).blk t).view.emb (ix2 k q)) = V c main_arg4 (ix2 k q)
  refine congrArg (V c main_arg4) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem blockOut (t : Fin cfg1.N) (p : Fin 5000) (q : Fin 128) :
    ((cfg1.win 4).blk t).view.emb (ix2 p q) = ix2 (row t p) q := by
  obtain ⟨-, -, -, -, -, -, -, -, e40, e41⟩ := idx_facts t
  refine funext fun a => Fin.ext ?_
  match a with
  | ⟨0, _⟩ => show win1_4.index t (0 : Fin 2) * 5000 + 1 * p.val = t.val * 5000 + p.val; omega
  | ⟨1, _⟩ => show win1_4.index t (1 : Fin 2) * 128 + 1 * q.val = q.val; omega

/-- WHAT POINT `t` WRITES BACK is block `t` of `G` of the arrays as the region finds them. -/
theorem flushed_eq (c : Dev nD) (t : Fin cfg1.N) :
    (dat1 V c).flushed 4 t
      = ((cfg1.win 4).blk t).view.read (Elt Ideal) (G (V c main_v28) (V c main_v17) (V c main_v29) (V c main_arg4)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x128) hz]
  funext j
  obtain ⟨p, q, rfl⟩ : ∃ (p : Fin 5000) (q : Fin 128), j = ix2 p q := ⟨j 0, j 1, eq_ix2 j⟩
  show k1_pay1 (F := Ideal) (iblk1 V c 1 t) (iblk1 V c 0 t) (iblk1 V c 2 t) (iblk1 V c 1 t) (iblk1 V c 3 t) (ix2 p q)
    = G (V c main_v28) (V c main_v17) (V c main_v29) (V c main_arg4) (((cfg1.win 4).blk t).view.emb (ix2 p q))
  refine (Body.pay1_apply (iblk1 V c 1 t) (iblk1 V c 0 t) (iblk1 V c 2 t) (iblk1 V c 3 t) p q).trans ?_
  rw [blockOut t p q, blockD V c t p]
  unfold G
  refine Finset.sum_congr rfl fun k _ => ?_
  rw [blockA V c t p k, blockB V c t k, blockW V c t k q]

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v30).slice (win1_4.rect t)).set ↔ _
  rw [View.set_slice_whole, Rect.mem_set_unit]
  exact Iff.rfl

/-- The ten blocks tile the array: row `r` is in the block of point `r / 5000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  let t : Fin cfg1.N := ⟨(i 0).val / 5000, by show _ < 10; omega⟩
  obtain ⟨-, -, -, -, -, -, -, -, e40, e41⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE RESULT ARRAY after the region. -/
theorem final (c : Dev nD) :
    (dat1 V c).arrAt 4 cfg1.N = G (V c main_v28) (V c main_v17) (V c main_v29) (V c main_arg4) :=
  (dat1 V c).arrAt_eq_of_cover 4 (G (V c main_v28) (V c main_v17) (V c main_v29) (V c main_arg4)) (fun t _ => flushed_eq V c t) cover

end Cert.KernelIdeal.Region1

end
-- ==== Proof.KRegion2.lean ====
/-
  What the third pallas_call leaves in its result array.

  Point `t` of its ten-point grid works on rows `5000·t … 5000·t + 4999` of the aggregated array and of the column of
  node factors and on the whole bias row, and writes the same rows of the result. Entry `(r, q)` of the result is
  `max (D[r] · A[r, q] + b[q]) 0`: one function of the whole arrays, whose restrictions the ten blocks are. The blocks
  tile the array.
-/
import proofs.«173331_j20340965114257_2_alg».proof.Proof.Gen.KernelIdeal.Frame
import proofs.«173331_j20340965114257_2_alg».proof.Proof.KBody

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Scale, bias, clip. -/
def G (A : S50000x128.Idx → EReal) (D : S50000x1.Idx → EReal) (Bv : S1x128.Idx → EReal) : S50000x128.Idx → EReal :=
  fun i => max (D (ix2 (i 0) (0 : Fin 1)) * A (ix2 (i 0) (i 1)) + Bv (ix2 (0 : Fin 1) (i 1))) 0

theorem hz : (![0, 0] : Fin 2 → Nat) = fun _ => 0 := funext fun a => by fin_cases a <;> rfl

/-- The printed index maps over the grid: the row windows move with the point, the bias window stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of point `t`'s block is row `5000·t + p` of the array. -/
def row (t : Fin cfg2.N) (p : Fin 5000) : Fin 50000 := ⟨t.val * 5000 + p.val, by have ht : t.val < 10 := t.isLt; have hp := p.isLt; show _ < 50000; omega⟩

theorem blockA (c : Dev nD) (t : Fin cfg2.N) (p : Fin 5000) (k : Fin 128) :
    iblk2 V c 0 t (ix2 p k) = V c main_v40 (ix2 (row t p) k) := by
  obtain ⟨e00, e01, -⟩ := idx_facts t
  show V c main_v40 (((cfg2.win 0).blk t).view.emb (ix2 p k)) = V c main_v40 (ix2 (row t p) k)
  refine congrArg (V c main_v40) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

theorem blockD (c : Dev nD) (t : Fin cfg2.N) (p : Fin 5000) :
    iblk2 V c 1 t (ix2 p (0 : Fin 1)) = V c main_v17 (ix2 (row t p) (0 : Fin 1)) := by
  obtain ⟨-, -, e10, e11, -⟩ := idx_facts t
  show V c main_v17 (((cfg2.win 1).blk t).view.emb (ix2 p (0 : Fin 1))) = V c main_v17 (ix2 (row t p) (0 : Fin 1))
  refine congrArg (V c main_v17) (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * 0 = 0; omega

theorem blockB (c : Dev nD) (t : Fin cfg2.N) (k : Fin 128) :
    iblk2 V c 2 t (ix2 (0 : Fin 1) k) = V c main_v41 (ix2 (0 : Fin 1) k) := by
  obtain ⟨-, -, -, -, e20, e21, -⟩ := idx_facts t
  show V c main_v41 (((cfg2.win 2).blk t).view.emb (ix2 (0 : Fin 1) k)) = V c main_v41 (ix2 (0 : Fin 1) k)
  refine congrArg (V c main_v41) (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

theorem blockOut (t : Fin cfg2.N) (p : Fin 5000) (q : Fin 128) :
    ((cfg2.win 3).blk t).view.emb (ix2 p q) = ix2 (row t p) q := by
  obtain ⟨-, -, -, -, -, -, e30, e31⟩ := idx_facts t
  refine funext fun a => Fin.ext ?_
  match a with
  | ⟨0, _⟩ => show win2_3.index t (0 : Fin 2) * 5000 + 1 * p.val = t.val * 5000 + p.val; omega
  | ⟨1, _⟩ => show win2_3.index t (1 : Fin 2) * 128 + 1 * q.val = q.val; omega

/-- WHAT POINT `t` WRITES BACK is block `t` of `G` of the arrays as the region finds them. -/
theorem flushed_eq (c : Dev nD) (t : Fin cfg2.N) :
    (dat2 V c).flushed 3 t = ((cfg2.win 3).blk t).view.read (Elt Ideal) (G (V c main_v40) (V c main_v17) (V c main_v41)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  show k2_pay1 (F := Ideal) (iblk2 V c 1 t) (iblk2 V c 0 t) (iblk2 V c 2 t) (ix2 p q)
    = G (V c main_v40) (V c main_v17) (V c main_v41) (((cfg2.win 3).blk t).view.emb (ix2 p q))
  refine (Body.pay2_apply (iblk2 V c 1 t) (iblk2 V c 0 t) (iblk2 V c 2 t) p q).trans ?_
  rw [blockOut t p q, blockD V c t p, blockA V c t p q, blockB V c t q]
  rfl

/-- An index of the array is in point `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v42).slice (win2_3.rect t)).set ↔ _
  rw [View.set_slice_whole, Rect.mem_set_unit]
  exact Iff.rfl

/-- The ten blocks tile the array: row `r` is in the block of point `r / 5000`. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 5000, by show _ < 10; omega⟩
  obtain ⟨-, -, -, -, -, -, e30, e31⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE RESULT ARRAY after the region. -/
theorem final (c : Dev nD) : (dat2 V c).arrAt 3 cfg2.N = G (V c main_v40) (V c main_v17) (V c main_v41) :=
  (dat2 V c).arrAt_eq_of_cover 3 (G (V c main_v40) (V c main_v17) (V c main_v41)) (fun t _ => flushed_eq V c t) cover

end Cert.KernelIdeal.Region2

end
-- ==== Proof.GcnIndex.lean ====
/-
  The row gather and the row scatter-add of the graph layers, read at an index.

  Both take their index words from a column `[650000, 1]`: edge `e`'s word is the column's entry `(e, 0)`.
  • The gather of rows of a `[50000, 128]` array: result entry `(e, j)` is the array at `(rowOf w, j)`, the word read
    signed and clamped. The same for a `[50000]` array: result entry `e` is the array at `rowOf w`.
  • The scatter-add of a `[650000, 128]` array of updates into a `[50000, 128]` array: update `(e, j)` lands on
    `(n, j)` when `hitOf w = some n` and is dropped otherwise, so entry `(n, j)` of the result is the operand's entry plus
    the sum of the updates `(e, j)` over the edges that land on `n`. The same for `[650000]` into `[50000]`.
-/
import proofs.«173331_j20340965114257_2_alg».proof.Proof.GcnSpec

noncomputable section

namespace Cert.Gcn

open Idealize.ShloMosaic Idealize.ShloMosaic.ValueIdx

/-! ## Gathers -/

section Gather
variable {α : Type}

/-- The dimension numbers of "rows of a `[50000, 128]` array at a column of indices". -/
abbrev rowsDims (wf : GatherDims.WF ⟨2, ![50000, 128]⟩ ⟨2, ![650000, 1]⟩ ⟨2, ![650000, 128]⟩ [1] [0] [] [0] [] 1 ![1, 128]) :
    GatherDims ⟨2, ![50000, 128]⟩ ⟨2, ![650000, 1]⟩ ⟨2, ![650000, 128]⟩ where
  offsetDims := [1]
  collapsedSliceDims := [0]
  operandBatchingDims := []
  startIndicesBatchingDims := []
  startIndexMap := [0]
  indexVectorDim := 1
  sliceSizes := ![1, 128]
  wf := wf

/-- The row gather at `(e, j)`. -/
theorem gather_rows_apply
    (wf : GatherDims.WF ⟨2, ![50000, 128]⟩ ⟨2, ![650000, 1]⟩ ⟨2, ![650000, 128]⟩ [1] [0] [] [0] [] 1 ![1, 128])
    (X : (⟨2, ![50000, 128]⟩ : Shape).Idx → α) (idx : IVec ⟨2, ![650000, 1]⟩ 32) (e : Fin 650000) (j : Fin 128) :
    Host.gather (rowsDims wf) X idx (ix2 e j) = X (ix2 (rowOf (idx (ix2 e 0))) j) := by
  unfold Host.gather
  refine congrArg X (funext fun a => Fin.ext ?_)
  have hsi : (rowsDims wf).siIdx (ix2 e j) ⟨List.idxOf (0 : Fin 2) (rowsDims wf).startIndexMap,
      List.idxOf_lt_length_iff.2 (List.mem_singleton.mpr rfl)⟩ = ix2 e 0 := by
    funext b; refine Fin.ext ?_
    match b with
    | ⟨0, _⟩ => rfl
    | ⟨1, _⟩ => rfl
  match a with
  | ⟨0, _⟩ =>
    show (rowsDims wf).start (ix2 e j) idx 0 + (rowsDims wf).batchCoord (ix2 e j) 0 + (rowsDims wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl), hsi]
    rfl
  | ⟨1, _⟩ =>
    show (rowsDims wf).start (ix2 e j) idx 1 + (rowsDims wf).batchCoord (ix2 e j) 1 + (rowsDims wf).offCoord (ix2 e j) 1 = j.val
    rw [GatherDims.batchCoord_eq_zero _ _ _ List.not_mem_nil]
    unfold GatherDims.start
    rw [dif_neg (show (1 : Fin 2) ∉ [(0 : Fin 2)] from by decide)]
    simp only [Nat.add_zero, Nat.zero_add]
    rfl

/-- The dimension numbers of "entries of a `[50000]` array at a column of indices". -/
abbrev entriesDims (wf : GatherDims.WF ⟨1, ![50000]⟩ ⟨2, ![650000, 1]⟩ ⟨1, ![650000]⟩ [] [0] [] [0] [] 1 ![1]) :
    GatherDims ⟨1, ![50000]⟩ ⟨2, ![650000, 1]⟩ ⟨1, ![650000]⟩ where
  offsetDims := []
  collapsedSliceDims := [0]
  operandBatchingDims := []
  startIndicesBatchingDims := []
  startIndexMap := [0]
  indexVectorDim := 1
  sliceSizes := ![1]
  wf := wf

/-- The entry gather at `e`. -/
theorem gather_entries_apply
    (wf : GatherDims.WF ⟨1, ![50000]⟩ ⟨2, ![650000, 1]⟩ ⟨1, ![650000]⟩ [] [0] [] [0] [] 1 ![1])
    (v : (⟨1, ![50000]⟩ : Shape).Idx → α) (idx : IVec ⟨2, ![650000, 1]⟩ 32) (e : Fin 650000) :
    Host.gather (entriesDims wf) v idx (ix1 e) = v (ix1 (rowOf (idx (ix2 e 0)))) := by
  unfold Host.gather
  refine congrArg v (funext fun a => Fin.ext ?_)
  obtain rfl : a = 0 := Subsingleton.elim _ _
  have hsi : (entriesDims wf).siIdx (ix1 e) ⟨List.idxOf (0 : Fin 1) (entriesDims wf).startIndexMap,
      List.idxOf_lt_length_iff.2 (List.mem_singleton.mpr rfl)⟩ = ix2 e 0 := by
    funext b; refine Fin.ext ?_
    match b with
    | ⟨0, _⟩ => rfl
    | ⟨1, _⟩ => rfl
  show (entriesDims wf).start (ix1 e) idx 0 + (entriesDims wf).batchCoord (ix1 e) 0 + (entriesDims wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims wf).startIndexMap from List.mem_singleton.mpr rfl), hsi]
  rfl

end Gather

/-! ## Scatter-adds -/

/-- The dimension numbers of "rows added into a `[50000, 128]` array at a column of indices". -/
abbrev addRowsDims (wf : ScatterDims.WF ⟨2, ![50000, 128]⟩ ⟨2, ![650000, 1]⟩ ⟨2, ![650000, 128]⟩ [1] [0] [0] 1) :
    ScatterDims ⟨2, ![50000, 128]⟩ ⟨2, ![650000, 1]⟩ ⟨2, ![650000, 128]⟩ where
  updateWindowDims := [1]
  insertedWindowDims := [0]
  scatterDimsToOperandDims := [0]
  indexVectorDim := 1
  wf := wf

/-- Where update `(e, j)` lands. -/
theorem addRows_resultIdx (wf : ScatterDims.WF ⟨2, ![50000, 128]⟩ ⟨2, ![650000, 1]⟩ ⟨2, ![650000, 128]⟩ [1] [0] [0] 1)
    (idx : IVec ⟨2, ![650000, 1]⟩ 32) (e : Fin 650000) (j : Fin 128) :
    (addRowsDims wf).resultIdx? (ix2 e j) idx = (hitOf (idx (ix2 e 0))).map fun n => ix2 n j := by
  have hsi : (addRowsDims wf).siIdx (ix2 e j) ⟨List.idxOf (0 : Fin 2) (addRowsDims wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have hs0 : (addRowsDims wf).start (ix2 e j) idx 0 = (idx (ix2 e 0)).toInt := by
    unfold ScatterDims.start
    rw [dif_pos (show (0 : Fin 2) ∈ (addRowsDims wf).scatterDimsToOperandDims from List.mem_singleton.mpr rfl), hsi]
  have hs1 : (addRowsDims wf).start (ix2 e j) idx 1 = 0 := by
    unfold ScatterDims.start
    rw [dif_neg (show (1 : Fin 2) ∉ [(0 : Fin 2)] from by decide)]
  have hw0 : (addRowsDims wf).window (ix2 e j) 0 = 0 := rfl
  have hw1 : (addRowsDims wf).window (ix2 e j) 1 = j.val := rfl
  unfold ScatterDims.resultIdx? hitOf
  by_cases h : 0 ≤ (idx (ix2 e 0)).toInt ∧ (idx (ix2 e 0)).toInt < 50000
  · have hall : ∀ a : Fin 2, 0 ≤ (addRowsDims wf).start (ix2 e j) idx a + ((addRowsDims wf).window (ix2 e j) a : ℤ)
        ∧ (addRowsDims wf).start (ix2 e j) idx a + ((addRowsDims wf).window (ix2 e j) a : ℤ) < ((⟨2, ![50000, 128]⟩ : Shape).size a : ℤ) := by
      intro a
      match a with
      | ⟨0, _⟩ =>
        show 0 ≤ (addRowsDims wf).start (ix2 e j) idx 0 + ((addRowsDims wf).window (ix2 e j) 0 : ℤ)
          ∧ (addRowsDims wf).start (ix2 e j) idx 0 + ((addRowsDims wf).window (ix2 e j) 0 : ℤ) < ((50000 : ℕ) : ℤ)
        rw [hs0, hw0]; exact ⟨by simpa using h.1, by simpa using h.2⟩
      | ⟨1, _⟩ =>
        show 0 ≤ (addRowsDims wf).start (ix2 e j) idx 1 + ((addRowsDims wf).window (ix2 e j) 1 : ℤ)
          ∧ (addRowsDims wf).start (ix2 e j) idx 1 + ((addRowsDims wf).window (ix2 e j) 1 : ℤ) < ((128 : ℕ) : ℤ)
        rw [hs1, hw1]; exact ⟨by omega, by have := j.isLt; omega⟩
    rw [dif_pos hall, dif_pos h]
    refine congrArg some (funext fun a => Fin.ext ?_)
    match a with
    | ⟨0, _⟩ => show ((addRowsDims wf).start (ix2 e j) idx 0 + ((addRowsDims wf).window (ix2 e j) 0 : ℤ)).toNat = _; rw [hs0, hw0]; simp
    | ⟨1, _⟩ => show ((addRowsDims wf).start (ix2 e j) idx 1 + ((addRowsDims wf).window (ix2 e j) 1 : ℤ)).toNat = j.val; rw [hs1, hw1]; simp
  · have hall : ¬ ∀ a : Fin 2, 0 ≤ (addRowsDims wf).start (ix2 e j) idx a + ((addRowsDims wf).window (ix2 e j) a : ℤ)
        ∧ (addRowsDims wf).start (ix2 e j) idx a + ((addRowsDims wf).window (ix2 e j) a : ℤ) < ((⟨2, ![50000, 128]⟩ : Shape).size a : ℤ) := by
      intro hh
      have h0 : 0 ≤ (addRowsDims wf).start (ix2 e j) idx 0 + ((addRowsDims wf).window (ix2 e j) 0 : ℤ)
          ∧ (addRowsDims wf).start (ix2 e j) idx 0 + ((addRowsDims wf).window (ix2 e j) 0 : ℤ) < ((50000 : ℕ) : ℤ) := hh 0
      rw [hs0, hw0] at h0
      exact h ⟨by simpa using h0.1, by simpa using h0.2⟩
    rw [dif_neg hall, dif_neg h]
    rfl

/-- THE ROW SCATTER-ADD at `(n, j)`: the operand's entry plus the updates `(e, j)` of the edges that land on `n`. -/
theorem scatterAdd_rows_apply (wf : ScatterDims.WF ⟨2, ![50000, 128]⟩ ⟨2, ![650000, 1]⟩ ⟨2, ![650000, 128]⟩ [1] [0] [0] 1)
    (x : FVec Ideal ⟨2, ![50000, 128]⟩ .f32) (idx : IVec ⟨2, ![650000, 1]⟩ 32) (upd : FVec Ideal ⟨2, ![650000, 128]⟩ .f32)
    (n : Fin 50000) (j : Fin 128) :
    Host.scatterAdd (addRowsDims wf) x idx upd (ix2 n j)
      = x (ix2 n j) + ∑ e ∈ Finset.univ.filter (fun e : Fin 650000 => hitOf (idx (ix2 e 0)) = some n), upd (ix2 e j) := by
  show x (ix2 n j) + ∑ u ∈ Finset.univ.filter (fun u => (addRowsDims wf).resultIdx? u idx = some (ix2 n j)), upd u = _
  refine congrArg (fun t => x (ix2 n j) + t) ?_
  rw [Finset.sum_filter, sum_idx2, Finset.sum_filter]
  refine Finset.sum_congr rfl fun e _ => ?_
  by_cases he : hitOf (idx (ix2 e 0)) = some n
  · rw [if_pos he]
    rw [Finset.sum_eq_single j]
    · rw [if_pos (by rw [addRows_resultIdx, he]; rfl)]
    · intro j' _ hj'
      rw [if_neg]
      rw [addRows_resultIdx, he]
      intro hh
      have := congrFun (Option.some.inj hh) 1
      exact hj' this
    · intro hh; exact absurd (Finset.mem_univ j) hh
  · rw [if_neg he]
    refine Finset.sum_eq_zero fun j' _ => ?_
    rw [if_neg]
    rw [addRows_resultIdx]
    intro hh
    rcases hv : hitOf (idx (ix2 e 0)) with _ | n'
    · rw [hv] at hh; exact absurd hh (by simp)
    · rw [hv] at hh
      have := congrFun (Option.some.inj hh) 0
      exact he (hv.trans (congrArg some this))

end Cert.Gcn

end
-- ==== Proof.GcnGlue.lean ====
/-
  One aggregation step of the graph layers as the programs spell it, read at an index.

  Both programs aggregate with the same three host operations: wrap the negative source indices, gather the rows of an
  array at the wrapped source indices, and scatter-add the gathered rows into a zero array at the destination indices.
  The index arrays are `[650000]`; the gather and the scatter read them through a `[650000, 1]` column. Entry `(n, j)` of
  the result is the sum, over the edges that land on `n`, of entry `j` of the edge's source row (`gatherSum`).
-/
import proofs.«173331_j20340965114257_2_alg».proof.Proof.GcnIndex
import Idealize.ShloMosaic.Lib.Pipeline.Value

noncomputable section

namespace Cert.Gcn

open Idealize.ShloMosaic Idealize.ShloMosaic.ValueIdx

/-- An array `[650000]` read through its column `[650000, 1]`. -/
theorem col_apply {α : Type} (hc : (⟨1, ![650000]⟩ : Shape).BroadcastsInDim ⟨2, ![650000, 1]⟩ ![0])
    (v : (⟨1, ![650000]⟩ : Shape).Idx → α) (e : Fin 650000) :
    broadcastInDim ⟨2, ![650000, 1]⟩ ![0] hc v (ix2 e (0 : Fin 1)) = v (ix1 e) := by
  refine broadcastInDim_apply ![0] hc v (ix2 e (0 : Fin 1)) (ix1 e) fun a => ?_
  match a with
  | ⟨0, _⟩ =>
    show e.val = if (650000 : ℕ) = 1 then 0 else e.val
    rw [if_neg (by decide)]

/-- The wrap of a whole index array as the programs spell it: compare with a zero array, add an array of 50000, select. -/
def wrapVec (hs : (⟨0, ![]⟩ : Shape).BroadcastsInDim ⟨1, ![650000]⟩ ![]) (v : IVec ⟨1, ![650000]⟩ 32) : IVec ⟨1, ![650000]⟩ 32 :=
  select (cmpi .slt v (broadcastInDim ⟨1, ![650000]⟩ ![] hs (constantI ⟨0, ![]⟩ 32 0#32)))
    (addi v (broadcastInDim ⟨1, ![650000]⟩ ![] hs (constantI ⟨0, ![]⟩ 32 50000#32))) v

theorem wrapVec_apply (hs : (⟨0, ![]⟩ : Shape).BroadcastsInDim ⟨1, ![650000]⟩ ![]) (v : IVec ⟨1, ![650000]⟩ 32) (e : Fin 650000) :
    wrapVec hs v (ix1 e) = wrap (v (ix1 e)) := rfl

/-- THE AGGREGATION at `(n, j)`. -/
theorem aggregate_apply
    (wfg : GatherDims.WF ⟨2, ![50000, 128]⟩ ⟨2, ![650000, 1]⟩ ⟨2, ![650000, 128]⟩ [1] [0] [] [0] [] 1 ![1, 128])
    (wfs : ScatterDims.WF ⟨2, ![50000, 128]⟩ ⟨2, ![650000, 1]⟩ ⟨2, ![650000, 128]⟩ [1] [0] [0] 1)
    (hz : (⟨0, ![]⟩ : Shape).BroadcastsInDim ⟨2, ![50000, 128]⟩ ![])
    (hc : (⟨1, ![650000]⟩ : Shape).BroadcastsInDim ⟨2, ![650000, 1]⟩ ![0])
    (hs : (⟨0, ![]⟩ : Shape).BroadcastsInDim ⟨1, ![650000]⟩ ![])
    (X : FVec Ideal ⟨2, ![50000, 128]⟩ .f32) (src dst : IVec ⟨1, ![650000]⟩ 32) (n : Fin 50000) (j : Fin 128) :
    Host.scatterAdd (addRowsDims wfs)
        (broadcastInDim ⟨2, ![50000, 128]⟩ ![] hz (constant (F := Ideal) ⟨0, ![]⟩ .f32 0x00000000#32))
        (broadcastInDim ⟨2, ![650000, 1]⟩ ![0] hc dst)
        (Host.gather (rowsDims wfg) X (broadcastInDim ⟨2, ![650000, 1]⟩ ![0] hc (wrapVec hs src))) (ix2 n j)
      = gatherSum src dst X (ix2 n j) := by
  rw [scatterAdd_rows_apply]
  have h0 : broadcastInDim ⟨2, ![50000, 128]⟩ ![] hz (constant (F := Ideal) ⟨0, ![]⟩ .f32 0x00000000#32) (ix2 n j) = 0 :=
    Ideal.ofBits_zero_f32
  rw [h0, zero_add]
  unfold gatherSum into srcRow
  refine Finset.sum_congr ?_ fun e _ => ?_
  · refine Finset.filter_congr fun e _ => ?_
    rw [col_apply hc dst e]
  · rw [gather_rows_apply, col_apply hc (wrapVec hs src) e, wrapVec_apply]

end Cert.Gcn

end
-- ==== Proof.KHost.lean ====
/-
  The kernel's program read from its result back to its arguments.

  The run leaves the result at the last boundary's contents. Going backwards: the third pallas_call's result is its
  function of the second aggregation, the column of node factors and the second bias; the second aggregation is the
  three host operations on the second pallas_call's result; that result is its function of the first aggregation, the
  column, the first bias and the second weight matrix; the first aggregation is the same three host operations on
  the first pallas_call's result; and that is its function of the features, the column and the first weight matrix.
  The index arrays, the column of node factors and the arguments are written by nothing after they are made, so every
  later boundary holds them as the first stretch left them. Put together, the result is `kernelNet` of the node
  factors, the two index arrays and the five float arguments.
-/
import proofs.«173331_j20340965114257_2_alg».proof.Proof.Gen.KernelIdeal.Frame
import proofs.«173331_j20340965114257_2_alg».proof.Proof.KRegion0
import proofs.«173331_j20340965114257_2_alg».proof.Proof.KRegion1
import proofs.«173331_j20340965114257_2_alg».proof.Proof.KRegion2
import proofs.«173331_j20340965114257_2_alg».proof.Proof.GcnGlue
import Idealize.ShloMosaic.Lib.ValueLayout
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

/-- A buffer that no operation of a stretch writes is after the stretch what it was before. -/
macro "untouched" : tactic => `(tactic| (
  refine StableHlo.after_of_forall_not_mem _ _ (List.forall_iff_forall_mem.mp ?_)
  simp only [hostOps0, hostOps0_1, hostOps0_2, hostOps1, hostOps2, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Plain facts about vectors -/

/-- A `[50000]` vector cast to a column reads, at row `n`, the vector at `n`. -/
theorem col_vec_apply (v : FVec Ideal S50000 .f32) (n : Fin 50000) :
    shapeCast S50000x1 v shapeCasts_S50000_S50000x1 (ix2 n (0 : Fin 1)) = v (ix1 n) := by
  refine shapeCast_apply v shapeCasts_S50000_S50000x1 (ix2 n (0 : Fin 1)) (ix1 n) ?_
  rw [Shape.rowMajor_val_two, Shape.rowMajor_val_one]
  show n.val = n.val * 1 + 0
  omega

/-- A `[128]` vector cast to a row reads, at lane `k`, the vector at `k`. -/
theorem row_vec_apply (b : FVec Ideal S128 .f32) (k : Fin 128) :
    shapeCast S1x128 b shapeCasts_S128_S1x128 (ix2 (0 : Fin 1) k) = b (ix1 k) :=
  shapeCast_a_1a_apply b shapeCasts_S128_S1x128 (0 : Fin 1) k

/-- The first pallas_call's function is the first projection of the layers, once its column is the node factors. -/
theorem G0_eq (X : FVec Ideal S50000x128 .f32) (D : FVec Ideal S50000x1 .f32) (Wt : FVec Ideal S128x128 .f32)
    (d : FVec Ideal S50000 .f32) (hD : ∀ n : Fin 50000, D (ix2 n (0 : Fin 1)) = d (ix1 n)) :
    Region0.G X D Wt = Cert.Gcn.preScale d X Wt := by
  funext i
  obtain ⟨n, j, rfl⟩ : ∃ (n : Fin 50000) (j : Fin 128), i = ix2 n j := ⟨i 0, i 1, eq_ix2 i⟩
  show ∑ k : Fin 128, (X (ix2 n k) * D (ix2 n (0 : Fin 1))) * Wt (ix2 k j) = ∑ k : Fin 128, (X (ix2 n k) * d (ix1 n)) * Wt (ix2 k j)
  rw [hD n]

/-- The second pallas_call's function is the middle of the layers, once its column is the node factors and its row the bias. -/
theorem G1_eq (A : FVec Ideal S50000x128 .f32) (D : FVec Ideal S50000x1 .f32) (Bv : FVec Ideal S1x128 .f32)
    (Wt : FVec Ideal S128x128 .f32) (d : FVec Ideal S50000 .f32) (b : FVec Ideal S128 .f32)
    (hD : ∀ n : Fin 50000, D (ix2 n (0 : Fin 1)) = d (ix1 n)) (hB : ∀ k : Fin 128, Bv (ix2 (0 : Fin 1) k) = b (ix1 k)) :
    Region1.G A D Bv Wt = Cert.Gcn.midLayer d A b Wt := by
  funext i
  obtain ⟨n, j, rfl⟩ : ∃ (n : Fin 50000) (j : Fin 128), i = ix2 n j := ⟨i 0, i 1, eq_ix2 i⟩
  show ∑ k : Fin 128, (D (ix2 n (0 : Fin 1)) * max (D (ix2 n (0 : Fin 1)) * A (ix2 n k) + Bv (ix2 (0 : Fin 1) k)) 0) * Wt (ix2 k j)
    = ∑ k : Fin 128, (d (ix1 n) * max (d (ix1 n) * A (ix2 n k) + b (ix1 k)) 0) * Wt (ix2 k j)
  rw [hD n]
  exact Finset.sum_congr rfl fun k _ => by rw [hB k]

/-- The third pallas_call's function is the end of the layers, once its column is the node factors and its row the bias. -/
theorem G2_eq (A : FVec Ideal S50000x128 .f32) (D : FVec Ideal S50000x1 .f32) (Bv : FVec Ideal S1x128 .f32)
    (d : FVec Ideal S50000 .f32) (b : FVec Ideal S128 .f32)
    (hD : ∀ n : Fin 50000, D (ix2 n (0 : Fin 1)) = d (ix1 n)) (hB : ∀ k : Fin 128, Bv (ix2 (0 : Fin 1) k) = b (ix1 k)) :
    Region2.G A D Bv = Cert.Gcn.postScale d A b := by
  funext i
  obtain ⟨n, j, rfl⟩ : ∃ (n : Fin 50000) (j : Fin 128), i = ix2 n j := ⟨i 0, i 1, eq_ix2 i⟩
  show max (D (ix2 n (0 : Fin 1)) * A (ix2 n j) + Bv (ix2 (0 : Fin 1) j)) 0 = max (d (ix1 n) * A (ix2 n j) + b (ix1 j)) 0
  rw [hD n, hB j]

/-- The three host operations of an aggregation, as a whole array. -/
theorem agg_eq (X : FVec Ideal S50000x128 .f32) (src dst : IVec S650000 32) :
    Host.scatterAdd scatter_S50000x128_S650000x1_S650000x128_1_0_0_1
        (broadcastInDim S50000x128 ![] bcast_S_S50000x128 (constant (F := Ideal) S_ .f32 0x00000000#32))
        (broadcastInDim S650000x1 ![0] bcast_S650000_S650000x1_0 dst)
        (Host.gather gather_S50000x128_S650000x1_S650000x128_1_0_n_n_0_1_1128 X
          (broadcastInDim S650000x1 ![0] bcast_S650000_S650000x1_0 (Cert.Gcn.wrapVec bcast_S_S650000 src)))
      = Cert.Gcn.gatherSum src dst X := by
  funext i
  obtain ⟨n, j, rfl⟩ : ∃ (n : Fin 50000) (j : Fin 128), i = ix2 n j := ⟨i 0, i 1, eq_ix2 i⟩
  exact Cert.Gcn.aggregate_apply gather_S50000x128_S650000x1_S650000x128_1_0_n_n_0_1_1128_wf
    scatter_S50000x128_S650000x1_S650000x128_1_0_0_1_wf bcast_S_S50000x128 bcast_S650000_S650000x1_0 bcast_S_S650000
    X src dst n j

/-! ## The stretches of host operations, from any contents -/

section Stages
variable (V : Valuation τ sig (Elt Ideal))

/-- The column of node factors is the node factors cast to `[50000, 1]`. -/
theorem col_stage : StableHlo.after hostOps0_2 V (Proc.devRef .tc main_v17)
    = shapeCast S50000x1 (V (Proc.devRef .tc main_v16)) shapeCasts_S50000_S50000x1 := by
  after_results
  rfl

/-- The first aggregation: wrap, gather, scatter-add. -/
theorem agg1_stage : StableHlo.after hostOps1 V (Proc.devRef .tc main_v28)
    = Host.scatterAdd scatter_S50000x128_S650000x1_S650000x128_1_0_0_1
        (broadcastInDim S50000x128 ![] bcast_S_S50000x128 (constant (F := Ideal) S_ .f32 0x00000000#32))
        (broadcastInDim S650000x1 ![0] bcast_S650000_S650000x1_0 (V (Proc.devRef .tc main_v6)))
        (Host.gather gather_S50000x128_S650000x1_S650000x128_1_0_n_n_0_1_1128 (V (Proc.devRef .tc main_v18))
          (broadcastInDim S650000x1 ![0] bcast_S650000_S650000x1_0
            (Cert.Gcn.wrapVec bcast_S_S650000 (V (Proc.devRef .tc main_v3))))) := by
  after_results
  rfl

/-- The first bias as a row. -/
theorem bias1_stage : StableHlo.after hostOps1 V (Proc.devRef .tc main_v29)
    = shapeCast S1x128 (V (Proc.devRef .tc main_arg3)) shapeCasts_S128_S1x128 := by
  after_results
  rfl

/-- The second aggregation: wrap, gather, scatter-add. -/
theorem agg2_stage : StableHlo.after hostOps2 V (Proc.devRef .tc main_v40)
    = Host.scatterAdd scatter_S50000x128_S650000x1_S650000x128_1_0_0_1
        (broadcastInDim S50000x128 ![] bcast_S_S50000x128 (constant (F := Ideal) S_ .f32 0x00000000#32))
        (broadcastInDim S650000x1 ![0] bcast_S650000_S650000x1_0 (V (Proc.devRef .tc main_v6)))
        (Host.gather gather_S50000x128_S650000x1_S650000x128_1_0_n_n_0_1_1128 (V (Proc.devRef .tc main_v30))
          (broadcastInDim S650000x1 ![0] bcast_S650000_S650000x1_0
            (Cert.Gcn.wrapVec bcast_S_S650000 (V (Proc.devRef .tc main_v3))))) := by
  after_results
  rfl

/-- The second bias as a row. -/
theorem bias2_stage : StableHlo.after hostOps2 V (Proc.devRef .tc main_v41)
    = shapeCast S1x128 (V (Proc.devRef .tc main_arg5)) shapeCasts_S128_S1x128 := by
  after_results
  rfl

end Stages

variable (m : (ℓ : Loc nD τ sig) → Buf (Elt Ideal) ℓ) (ρ : Dev nD → PrngReg) (c : Dev nD)

/-! ## What the first stretches leave: the index arrays and the node factors -/

/-- The source index of every edge (the first row of the edge list, then the self-loops). -/
abbrev srcK : IVec S650000 32 := W1 m ρ c (Proc.devRef .tc main_v3)
/-- The destination index of every edge (the second row of the edge list, then the self-loops). -/
abbrev dstK : IVec S650000 32 := W1 m ρ c (Proc.devRef .tc main_v6)
/-- The node factors: the inverse square root of the in-degree, zero where the degree is zero. -/
abbrev disK : FVec Ideal S50000 .f32 := W2 m ρ c (Proc.devRef .tc main_v16)

/-! ## Buffers that stay -/

theorem W3_src : W3 m ρ c (Proc.devRef .tc main_v3) = srcK m ρ c :=
  calc W3 m ρ c (Proc.devRef .tc main_v3)
    _ = W2 m ρ c (Proc.devRef .tc main_v3) := by untouched
    _ = W1 m ρ c (Proc.devRef .tc main_v3) := by untouched
theorem W4_src : W4 m ρ c (Proc.devRef .tc main_v3) = srcK m ρ c :=
  (W4_of_ne m ρ c main_v3 (by decide)).trans (W3_src m ρ c)
theorem W5_src : W5 m ρ c (Proc.devRef .tc main_v3) = srcK m ρ c :=
  (show W5 m ρ c (Proc.devRef .tc main_v3) = W4 m ρ c (Proc.devRef .tc main_v3) by untouched).trans (W4_src m ρ c)
theorem W6_src : W6 m ρ c (Proc.devRef .tc main_v3) = srcK m ρ c :=
  (W6_of_ne m ρ c main_v3 (by decide)).trans (W5_src m ρ c)

theorem W3_dst : W3 m ρ c (Proc.devRef .tc main_v6) = dstK m ρ c :=
  calc W3 m ρ c (Proc.devRef .tc main_v6)
    _ = W2 m ρ c (Proc.devRef .tc main_v6) := by untouched
    _ = W1 m ρ c (Proc.devRef .tc main_v6) := by untouched
theorem W4_dst : W4 m ρ c (Proc.devRef .tc main_v6) = dstK m ρ c :=
  (W4_of_ne m ρ c main_v6 (by decide)).trans (W3_dst m ρ c)
theorem W5_dst : W5 m ρ c (Proc.devRef .tc main_v6) = dstK m ρ c :=
  (show W5 m ρ c (Proc.devRef .tc main_v6) = W4 m ρ c (Proc.devRef .tc main_v6) by untouched).trans (W4_dst m ρ c)
theorem W6_dst : W6 m ρ c (Proc.devRef .tc main_v6) = dstK m ρ c :=
  (W6_of_ne m ρ c main_v6 (by decide)).trans (W5_dst m ρ c)

/-- The column of node factors is an input of each pallas_call, which leaves its inputs as it found them. -/
theorem W4_col : W4 m ρ c (Proc.devRef .tc main_v17) = W3 m ρ c (Proc.devRef .tc main_v17) :=
  (W4_arr m ρ c 1).trans (((dat0 (V3 m ρ) c).arrAt_in 1 rfl _).trans (A_eq0 (V3 m ρ) c 1))
theorem W5_col : W5 m ρ c (Proc.devRef .tc main_v17) = W3 m ρ c (Proc.devRef .tc main_v17) :=
  (show W5 m ρ c (Proc.devRef .tc main_v17) = W4 m ρ c (Proc.devRef .tc main_v17) by untouched).trans (W4_col m ρ c)
theorem W6_col : W6 m ρ c (Proc.devRef .tc main_v17) = W3 m ρ c (Proc.devRef .tc main_v17) :=
  ((W6_arr m ρ c 1).trans (((dat1 (V5 m ρ) c).arrAt_in 1 rfl _).trans (A_eq1 (V5 m ρ) c 1))).trans (W5_col m ρ c)
theorem W7_col : W7 m ρ c (Proc.devRef .tc main_v17) = W3 m ρ c (Proc.devRef .tc main_v17) :=
  (show W7 m ρ c (Proc.devRef .tc main_v17) = W6 m ρ c (Proc.devRef .tc main_v17) by untouched).trans (W6_col m ρ c)

/-- The column is the node factors, one per row. -/
theorem W3_col_apply (n : Fin 50000) :
    (W3 m ρ c (Proc.devRef .tc main_v17) : FVec Ideal S50000x1 .f32) (ix2 n (0 : Fin 1)) = disK m ρ c (ix1 n) :=
  (congrFun (col_stage (W2 m ρ c)) (ix2 n (0 : Fin 1))).trans (col_vec_apply (disK m ρ c) n)

/-! ## The arguments at the boundaries where they are read -/

theorem W3_arg0 : W3 m ρ c (Proc.devRef .tc main_arg0) = m ((c : Thread nD τ).loc main_arg0) :=
  calc W3 m ρ c (Proc.devRef .tc main_arg0)
    _ = W2 m ρ c (Proc.devRef .tc main_arg0) := by untouched
    _ = W1 m ρ c (Proc.devRef .tc main_arg0) := by untouched
    _ = W0 m ρ c (Proc.devRef .tc main_arg0) := by untouched
    _ = m ((c : Thread nD τ).loc main_arg0) := rfl
theorem W3_arg2 : W3 m ρ c (Proc.devRef .tc main_arg2) = m ((c : Thread nD τ).loc main_arg2) :=
  calc W3 m ρ c (Proc.devRef .tc main_arg2)
    _ = W2 m ρ c (Proc.devRef .tc main_arg2) := by untouched
    _ = W1 m ρ c (Proc.devRef .tc main_arg2) := by untouched
    _ = W0 m ρ c (Proc.devRef .tc main_arg2) := by untouched
    _ = m ((c : Thread nD τ).loc main_arg2) := rfl
theorem W4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by untouched
    _ = W1 m ρ c (Proc.devRef .tc main_arg3) := by untouched
    _ = W0 m ρ c (Proc.devRef .tc main_arg3) := by untouched
    _ = m ((c : Thread nD τ).loc main_arg3) := rfl
theorem W5_arg4 : W5 m ρ c (Proc.devRef .tc main_arg4) = m ((c : Thread nD τ).loc main_arg4) :=
  calc W5 m ρ c (Proc.devRef .tc main_arg4)
    _ = W4 m ρ c (Proc.devRef .tc main_arg4) := by untouched
    _ = W3 m ρ c (Proc.devRef .tc main_arg4) := W4_of_ne m ρ c main_arg4 (by decide)
    _ = W2 m ρ c (Proc.devRef .tc main_arg4) := by untouched
    _ = W1 m ρ c (Proc.devRef .tc main_arg4) := by untouched
    _ = W0 m ρ c (Proc.devRef .tc main_arg4) := by untouched
    _ = m ((c : Thread nD τ).loc main_arg4) := rfl
theorem W6_arg5 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by untouched
    _ = W3 m ρ c (Proc.devRef .tc main_arg5) := W4_of_ne m ρ c main_arg5 (by decide)
    _ = W2 m ρ c (Proc.devRef .tc main_arg5) := by untouched
    _ = W1 m ρ c (Proc.devRef .tc main_arg5) := by untouched
    _ = W0 m ρ c (Proc.devRef .tc main_arg5) := by untouched
    _ = m ((c : Thread nD τ).loc main_arg5) := rfl

/-! ## The layers, boundary by boundary -/

/-- The first pallas_call's result, the first aggregation, the second pallas_call's result, the second aggregation. -/
abbrev xw1 : FVec Ideal S50000x128 .f32 := W4 m ρ c (Proc.devRef .tc main_v18)
abbrev agg1 : FVec Ideal S50000x128 .f32 := W5 m ρ c (Proc.devRef .tc main_v28)
abbrev xw2 : FVec Ideal S50000x128 .f32 := W6 m ρ c (Proc.devRef .tc main_v30)
abbrev agg2 : FVec Ideal S50000x128 .f32 := W7 m ρ c (Proc.devRef .tc main_v40)

theorem xw1_eq : xw1 m ρ c
    = Cert.Gcn.preScale (disK m ρ c) (m ((c : Thread nD τ).loc main_arg0)) (m ((c : Thread nD τ).loc main_arg2)) :=
  ((W4_arr m ρ c 3).trans (Region0.final (V3 m ρ) c)).trans
    ((G0_eq _ _ _ (disK m ρ c) (W3_col_apply m ρ c)).trans
      (congrArg₂ (fun X Wt => Cert.Gcn.preScale (disK m ρ c) X Wt) (W3_arg0 m ρ c) (W3_arg2 m ρ c)))

theorem agg1_eq : agg1 m ρ c = Cert.Gcn.gatherSum (srcK m ρ c) (dstK m ρ c) (xw1 m ρ c) :=
  (agg1_stage (W4 m ρ c)).trans
    ((agg_eq (xw1 m ρ c) _ _).trans
      (congrArg₂ (fun s d => Cert.Gcn.gatherSum s d (xw1 m ρ c)) (W4_src m ρ c) (W4_dst m ρ c)))

theorem bias1_apply (k : Fin 128) :
    (W5 m ρ c (Proc.devRef .tc main_v29) : FVec Ideal S1x128 .f32) (ix2 (0 : Fin 1) k) = m ((c : Thread nD τ).loc main_arg3) (ix1 k) :=
  (congrFun (bias1_stage (W4 m ρ c)) (ix2 (0 : Fin 1) k)).trans
    ((row_vec_apply _ k).trans (congrFun (W4_arg3 m ρ c) (ix1 k)))

theorem xw2_eq : xw2 m ρ c
    = Cert.Gcn.midLayer (disK m ρ c) (agg1 m ρ c) (m ((c : Thread nD τ).loc main_arg3)) (m ((c : Thread nD τ).loc main_arg4)) :=
  ((W6_arr m ρ c 4).trans (Region1.final (V5 m ρ) c)).trans
    ((G1_eq _ _ _ _ (disK m ρ c) (m ((c : Thread nD τ).loc main_arg3))
        (fun n => (congrFun (W5_col m ρ c) _).trans (W3_col_apply m ρ c n)) (bias1_apply m ρ c)).trans
      (congrArg (fun Wt => Cert.Gcn.midLayer (disK m ρ c) (agg1 m ρ c) (m ((c : Thread nD τ).loc main_arg3)) Wt) (W5_arg4 m ρ c)))

theorem agg2_eq : agg2 m ρ c = Cert.Gcn.gatherSum (srcK m ρ c) (dstK m ρ c) (xw2 m ρ c) :=
  (agg2_stage (W6 m ρ c)).trans
    ((agg_eq (xw2 m ρ c) _ _).trans
      (congrArg₂ (fun s d => Cert.Gcn.gatherSum s d (xw2 m ρ c)) (W6_src m ρ c) (W6_dst m ρ c)))

theorem bias2_apply (k : Fin 128) :
    (W7 m ρ c (Proc.devRef .tc main_v41) : FVec Ideal S1x128 .f32) (ix2 (0 : Fin 1) k) = m ((c : Thread nD τ).loc main_arg5) (ix1 k) :=
  (congrFun (bias2_stage (W6 m ρ c)) (ix2 (0 : Fin 1) k)).trans
    ((row_vec_apply _ k).trans (congrFun (W6_arg5 m ρ c) (ix1 k)))

/-! ## The result -/

/-- THE KERNEL'S VALUE: the last boundary's contents of the result buffer. -/
theorem result_eq : W8 m ρ c (Proc.devRef .tc main_v42)
    = Cert.Gcn.kernelNet (disK m ρ c) (srcK m ρ c) (dstK m ρ c) (m ((c : Thread nD τ).loc main_arg0))
        (m ((c : Thread nD τ).loc main_arg2)) (m ((c : Thread nD τ).loc main_arg3)) (m ((c : Thread nD τ).loc main_arg4))
        (m ((c : Thread nD τ).loc main_arg5)) :=
  ((W8_arr m ρ c 3).trans (Region2.final (V7 m ρ) c)).trans
    ((G2_eq (agg2 m ρ c) _ _ (disK m ρ c) (m ((c : Thread nD τ).loc main_arg5))
        (fun n => (congrFun (W7_col m ρ c) _).trans (W3_col_apply m ρ c n)) (bias2_apply m ρ c)).trans
      (congrArg (fun A => Cert.Gcn.postScale (disK m ρ c) A (m ((c : Thread nD τ).loc main_arg5)))
        ((agg2_eq m ρ c).trans (congrArg (Cert.Gcn.gatherSum (srcK m ρ c) (dstK m ρ c))
          ((xw2_eq m ρ c).trans (congrArg (fun A => Cert.Gcn.midLayer (disK m ρ c) A (m ((c : Thread nD τ).loc main_arg3))
              (m ((c : Thread nD τ).loc main_arg4)))
            ((agg1_eq m ρ c).trans (congrArg (Cert.Gcn.gatherSum (srcK m ρ c) (dstK m ρ c)) (xw1_eq m ρ c)))))))))

end Cert.KernelIdeal.Host

end
-- ==== Proof.KChain.lean ====
/-
  The two programs make their index arrays and node factors the same way.

  Both start with the same host operations on the edge list: the source and destination index of every edge (a row
  of the edge list followed by the self-loops), the in-degree as a scatter-add of ones, and the node factor, the
  inverse square root of the degree where it is positive. What the kernel's program holds in those three buffers when
  its first stretches are over is therefore, term for term, what the reference's stages compute from the same edge list.
-/
import proofs.«173331_j20340965114257_2_alg».proof.Proof.Gen.KernelIdeal.Frame
import proofs.«173331_j20340965114257_2_alg».proof.Proof.ReadP
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe
open Idealize.SL.Sem Idealize.ShloMosaic.StableHlo

/-- The select that ends the node factors' computation, from any contents of the buffers it reads. -/
theorem where_stage (V : Valuation τ sig (Elt Ideal)) :
    StableHlo.after hostOps0_1 V (Proc.devRef .tc main_v16)
      = select (V (Proc.devRef .tc main_v12)) (V (Proc.devRef .tc main_v15))
          (broadcastInDim S50000 ![] bcast_S_S50000 (V (Proc.devRef .tc main_cst_3))) := by
  after_results
  rfl

variable (m : (ℓ : Loc nD τ sig) → Buf (Elt Ideal) ℓ) (ρ : Dev nD → PrngReg) (c : Dev nD)

/-- The source indices. -/
theorem src_eq : W1 m ρ c (Proc.devRef .tc main_v3)
    = Cert.ReferenceIdeal.ReadP.val_main_v3 (F := Ideal) (m ((c : Thread nD τ).loc main_arg1)) := by
  show StableHlo.after hostOps0 (W0 m ρ c) (Proc.devRef .tc main_v3) = _
  after_results
  rfl

/-- The destination indices. -/
theorem dst_eq : W1 m ρ c (Proc.devRef .tc main_v6)
    = Cert.ReferenceIdeal.ReadP.val_main_v6 (F := Ideal) (m ((c : Thread nD τ).loc main_arg1)) := by
  show StableHlo.after hostOps0 (W0 m ρ c) (Proc.devRef .tc main_v6) = _
  after_results
  rfl

/-- "The degree is positive", per node. -/
theorem pos_eq : W1 m ρ c (Proc.devRef .tc main_v12)
    = Cert.ReferenceIdeal.ReadP.val_main_v12 (F := Ideal) (m ((c : Thread nD τ).loc main_arg1)) := by
  show StableHlo.after hostOps0 (W0 m ρ c) (Proc.devRef .tc main_v12) = _
  after_results
  rfl

/-- The inverse square root of the degree raised to at least one, per node. -/
theorem rsqrt_eq : W1 m ρ c (Proc.devRef .tc main_v15)
    = Cert.ReferenceIdeal.ReadP.val_main_v15 (F := Ideal) (m ((c : Thread nD τ).loc main_arg1)) := by
  show StableHlo.after hostOps0 (W0 m ρ c) (Proc.devRef .tc main_v15) = _
  after_results
  rfl

/-- The zero that stands where the degree is zero. -/
theorem zero_eq : W1 m ρ c (Proc.devRef .tc main_cst_3) = Cert.ReferenceIdeal.ReadP.val_main_cst_3 (F := Ideal) := by
  show StableHlo.after hostOps0 (W0 m ρ c) (Proc.devRef .tc main_cst_3) = _
  after_results
  rfl

/-- The node factors. -/
theorem dis_eq : W2 m ρ c (Proc.devRef .tc main_v16)
    = Cert.ReferenceIdeal.ReadP.val_main_v16 (F := Ideal) (m ((c : Thread nD τ).loc main_arg1)) :=
  (where_stage (W1 m ρ c)).trans (by rw [pos_eq, rsqrt_eq, zero_eq]; rfl)

end Cert.KernelIdeal.Chain

end
-- ==== Proof.RefValue.lean ====
/-
  The reference program's result array, read index by index, is the two graph-convolution layers in the
  reference's arrangement (`Cert.Gcn.referenceNet`), over three arrays the program computes from its edge list and
  never opens here: the source word of every edge, the destination word of every edge, and the per-node factor.

  One layer of the program, with `w_s e`, `w_d e` the two words of edge `e` and `d` the node factor:
    • three index columns, each an edge word with a negative one wrapped by `+ 50000` (`wrap`);
    • the projection `P[s, c] = ∑_k X[s, k] · W[k, c]`;
    • three gathers at the wrapped words, read signed and clamped (`rowOf`): the rows `P[srcRow e, ·]`, the factors
      `d[srcRow e]` and `d[dstRow e]`;
    • the message of edge `e` at column `c`: `P[srcRow e, c] · (d[srcRow e] · d[dstRow e])`;
    • the scatter-add of the messages into zeros at the unwrapped destination words: entry `(n, c)` is
      `0 + ∑_{e lands on n} message e c`;
    • the bias of column `c` added, and the maximum with zero.
  That is `refLayer` entry by entry. The second layer runs the same operations over the first layer's result.
-/
import proofs.«173331_j20340965114257_2_alg».proof.Proof.ReadP
import proofs.«173331_j20340965114257_2_alg».proof.Proof.GcnSpec
import proofs.«173331_j20340965114257_2_alg».proof.Proof.GcnIndex

noncomputable section

namespace Cert.ReferenceIdeal.RefValue

open Cert.ReferenceIdeal Cert.ReferenceIdeal.Gen Cert.ReferenceIdeal.ReadP Idealize.ShloMosaic Idealize.ShloMosaic.ValueIdx Cert.Gcn

/-! ## The program's gathers and scatter-add at an index, and the specification's layer at an index -/

/-- The program's gather out of a `[50000]` array at edge `e`: the array at the row the edge's index word names. -/
theorem gatherVec_apply {α : Type} (v : S50000.Idx → α) (idx : IVec S650000x1 32) (e : Fin 650000) :
    Host.gather gather_S50000_S650000x1_S650000_n_0_n_n_0_1_1 v idx (ix1 e) = v (ix1 (rowOf (idx (ix2 e 0)))) :=
  gather_entries_apply gather_S50000_S650000x1_S650000_n_0_n_n_0_1_1_wf v idx e

/-- The program's gather of rows of a `[50000, 128]` array at edge `e`, column `c`. -/
theorem gatherRows_apply {α : Type} (X : S50000x128.Idx → α) (idx : IVec S650000x1 32) (e : Fin 650000) (c : Fin 128) :
    Host.gather gather_S50000x128_S650000x1_S650000x128_1_0_n_n_0_1_1128 X idx (ix2 e c)
      = X (ix2 (rowOf (idx (ix2 e 0))) c) :=
  gather_rows_apply gather_S50000x128_S650000x1_S650000x128_1_0_n_n_0_1_1128_wf X idx e c

/-- The program's scatter-add of edge rows into node rows at `(n, c)`: the operand's entry plus the updates `(e, c)` of
    the edges whose index word lands on `n`. -/
theorem scatterRows_apply (x : FVec Ideal S50000x128 .f32) (idx : IVec S650000x1 32) (upd : FVec Ideal S650000x128 .f32)
    (n : Fin 50000) (c : Fin 128) :
    Host.scatterAdd scatter_S50000x128_S650000x1_S650000x128_1_0_0_1 x idx upd (ix2 n c)
      = x (ix2 n c) + ∑ e ∈ Finset.univ.filter (fun e : Fin 650000 => hitOf (idx (ix2 e 0)) = some n), upd (ix2 e c) :=
  scatterAdd_rows_apply scatter_S50000x128_S650000x1_S650000x128_1_0_0_1_wf x idx upd n c

/-- The specification's layer at row `n`, column `c`. -/
theorem refLayer_at (d : (⟨1, ![50000]⟩ : Shape).Idx → EReal) (src dst : IVec ⟨1, ![650000]⟩ 32)
    (X : (⟨2, ![50000, 128]⟩ : Shape).Idx → EReal) (W : (⟨2, ![128, 128]⟩ : Shape).Idx → EReal)
    (b : (⟨1, ![128]⟩ : Shape).Idx → EReal) (n : Fin 50000) (c : Fin 128) :
    refLayer d src dst X W b (ix2 n c)
      = max ((∑ e ∈ into dst n, (∑ k : Fin 128, X (ix2 (srcRow src e) k) * W (ix2 k c))
          * (d (ix1 (srcRow src e)) * d (ix1 (dstRow dst e)))) + b (ix1 c)) 0 := rfl

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-! ## The index columns: entry `(e, 0)` is the edge's word, a negative one wrapped -/

/-- The column the first layer's gather of source factors reads: the source words, wrapped. -/
theorem v23_at (e : Fin 650000) :
    val_main_v23 (F := Ideal) x1 (ix2 e (0 : Fin 1)) = wrap (val_main_v3 (F := Ideal) x1 (ix1 e)) := by
  have e1 : idx_main_v23 (ix2 e (0 : Fin 1)) = ix1 e := funext fun a => Fin.ext (by match a with | ⟨0, _⟩ => rfl)
  unfold wrap
  rw [val_main_v23_apply, e1, val_main_v22_apply, val_main_v19_apply, val_main_v21_apply, val_main_v18_apply,
    val_main_v20_apply, val_main_c_apply, val_main_c_4_apply]

/-- The column the first layer's gather of destination factors reads: the destination words, wrapped. -/
theorem v30_at (e : Fin 650000) :
    val_main_v30 (F := Ideal) x1 (ix2 e (0 : Fin 1)) = wrap (val_main_v6 (F := Ideal) x1 (ix1 e)) := by
  have e1 : idx_main_v30 (ix2 e (0 : Fin 1)) = ix1 e := funext fun a => Fin.ext (by match a with | ⟨0, _⟩ => rfl)
  unfold wrap
  rw [val_main_v30_apply, e1, val_main_v29_apply, val_main_v26_apply, val_main_v28_apply, val_main_v25_apply,
    val_main_v27_apply, val_main_c_5_apply, val_main_c_6_apply]

/-- The column the first layer's gather of rows reads: the source words, wrapped. -/
theorem v38_at (e : Fin 650000) :
    val_main_v38 (F := Ideal) x1 (ix2 e (0 : Fin 1)) = wrap (val_main_v3 (F := Ideal) x1 (ix1 e)) := by
  have e1 : idx_main_v38 (ix2 e (0 : Fin 1)) = ix1 e := funext fun a => Fin.ext (by match a with | ⟨0, _⟩ => rfl)
  unfold wrap
  rw [val_main_v38_apply, e1, val_main_v37_apply, val_main_v34_apply, val_main_v36_apply, val_main_v33_apply,
    val_main_v35_apply, val_main_c_7_apply, val_main_c_8_apply]

/-- The column the second layer's gather of source factors reads: the source words, wrapped. -/
theorem v56_at (e : Fin 650000) :
    val_main_v56 (F := Ideal) x1 (ix2 e (0 : Fin 1)) = wrap (val_main_v3 (F := Ideal) x1 (ix1 e)) := by
  have e1 : idx_main_v56 (ix2 e (0 : Fin 1)) = ix1 e := funext fun a => Fin.ext (by match a with | ⟨0, _⟩ => rfl)
  unfold wrap
  rw [val_main_v56_apply, e1, val_main_v55_apply, val_main_v52_apply, val_main_v54_apply, val_main_v51_apply,
    val_main_v53_apply, val_main_c_10_apply, val_main_c_11_apply]

/-- The column the second layer's gather of destination factors reads: the destination words, wrapped. -/
theorem v63_at (e : Fin 650000) :
    val_main_v63 (F := Ideal) x1 (ix2 e (0 : Fin 1)) = wrap (val_main_v6 (F := Ideal) x1 (ix1 e)) := by
  have e1 : idx_main_v63 (ix2 e (0 : Fin 1)) = ix1 e := funext fun a => Fin.ext (by match a with | ⟨0, _⟩ => rfl)
  unfold wrap
  rw [val_main_v63_apply, e1, val_main_v62_apply, val_main_v59_apply, val_main_v61_apply, val_main_v58_apply,
    val_main_v60_apply, val_main_c_12_apply, val_main_c_13_apply]

/-- The column the second layer's gather of rows reads: the source words, wrapped. -/
theorem v71_at (e : Fin 650000) :
    val_main_v71 (F := Ideal) x1 (ix2 e (0 : Fin 1)) = wrap (val_main_v3 (F := Ideal) x1 (ix1 e)) := by
  have e1 : idx_main_v71 (ix2 e (0 : Fin 1)) = ix1 e := funext fun a => Fin.ext (by match a with | ⟨0, _⟩ => rfl)
  unfold wrap
  rw [val_main_v71_apply, e1, val_main_v70_apply, val_main_v67_apply, val_main_v69_apply, val_main_v66_apply,
    val_main_v68_apply, val_main_c_14_apply, val_main_c_15_apply]

/-! ## Layer 1 -/

/-- The node factor of edge `e`'s source row. -/
theorem v24_at (e : Fin 650000) :
    val_main_v24 (F := Ideal) x1 (ix1 e) = (val_main_v16 (F := Ideal) x1) (ix1 (srcRow (val_main_v3 (F := Ideal) x1) e)) := by
  unfold val_main_v24
  rw [gatherVec_apply, v23_at]
  rfl

/-- The node factor of edge `e`'s destination row. -/
theorem v31_at (e : Fin 650000) :
    val_main_v31 (F := Ideal) x1 (ix1 e) = (val_main_v16 (F := Ideal) x1) (ix1 (dstRow (val_main_v6 (F := Ideal) x1) e)) := by
  unfold val_main_v31
  rw [gatherVec_apply, v30_at]
  rfl

/-- The projection at row `n`, column `c`: the contraction over the 128 features. -/
theorem v17_at (n : Fin 50000) (c : Fin 128) :
    val_main_v17 (F := Ideal) x0 x2 (ix2 n c) = ∑ k : Fin 128, x0 (ix2 n k) * x2 (ix2 k c) := by
  rw [val_main_v17_apply]
  refine Finset.sum_congr rfl fun k _ => ?_
  have el : lidx_main_v17 (ix2 n c) k = ix2 n k := funext fun a => Fin.ext (by match a with | ⟨0, _⟩ => rfl | ⟨1, _⟩ => rfl)
  have er : ridx_main_v17 (ix2 n c) k = ix2 k c := funext fun a => Fin.ext (by match a with | ⟨0, _⟩ => rfl | ⟨1, _⟩ => rfl)
  rw [el, er]

/-- Edge `e`'s gathered row is the projection's row at the edge's source row. -/
theorem v39_at (e : Fin 650000) (c : Fin 128) :
    val_main_v39 (F := Ideal) x0 x1 x2 (ix2 e c) = val_main_v17 (F := Ideal) x0 x2 (ix2 (srcRow (val_main_v3 (F := Ideal) x1) e) c) := by
  unfold val_main_v39
  rw [gatherRows_apply, v38_at]
  rfl

/-- Edge `e`'s message at column `c`: the gathered row times the two end factors. -/
theorem v42_at (e : Fin 650000) (c : Fin 128) :
    val_main_v42 (F := Ideal) x0 x1 x2 (ix2 e c)
      = val_main_v17 (F := Ideal) x0 x2 (ix2 (srcRow (val_main_v3 (F := Ideal) x1) e) c)
        * ((val_main_v16 (F := Ideal) x1) (ix1 (srcRow (val_main_v3 (F := Ideal) x1) e)) * (val_main_v16 (F := Ideal) x1) (ix1 (dstRow (val_main_v6 (F := Ideal) x1) e))) := by
  have e1 : idx_main_v40 (idx_main_v41 (ix2 e c)) = ix1 e := funext fun a => Fin.ext (by match a with | ⟨0, _⟩ => rfl)
  rw [val_main_v42_apply, val_main_v41_apply, val_main_v40_apply, e1, val_main_v32_apply,
    v24_at, v31_at, v39_at]
  rfl

/-- The word the scatter reads for edge `e` is its destination word. -/
theorem v44_at (e : Fin 650000) :
    val_main_v44 (F := Ideal) x1 (ix2 e (0 : Fin 1)) = (val_main_v6 (F := Ideal) x1) (ix1 e) := by
  have e1 : idx_main_v44 (ix2 e (0 : Fin 1)) = ix1 e := funext fun a => Fin.ext (by match a with | ⟨0, _⟩ => rfl)
  rw [val_main_v44_apply, e1]

/-- The aggregation at row `n`, column `c`: the messages of the edges that land on `n`, added to zero. -/
theorem v45_at (n : Fin 50000) (c : Fin 128) :
    val_main_v45 (F := Ideal) x0 x1 x2 (ix2 n c) = ∑ e ∈ into (val_main_v6 (F := Ideal) x1) n, val_main_v42 (F := Ideal) x0 x1 x2 (ix2 e c) := by
  have hz : val_main_v43 (F := Ideal) (ix2 n c) = 0 := by
    rw [val_main_v43_apply, val_main_cst_9_apply]
    exact Ideal.ofBits_zero_f32
  unfold val_main_v45
  rw [scatterRows_apply, hz, zero_add]
  exact Finset.sum_congr (Finset.filter_congr fun e _ => by rw [v44_at]) fun _ _ => rfl

/-- After the aggregation: the bias of the column is added and the result clipped at zero. -/
theorem v49_at (n : Fin 50000) (c : Fin 128) :
    val_main_v49 (F := Ideal) x0 x1 x2 x3 (ix2 n c) = max (val_main_v45 (F := Ideal) x0 x1 x2 (ix2 n c) + x3 (ix1 c)) 0 := by
  have e1 : idx_main_v46 (idx_main_v47 (ix2 n c)) = ix1 c := funext fun a => Fin.ext (by match a with | ⟨0, _⟩ => rfl)
  have hz : val_main_call1_v0 (F := Ideal) (ix2 n c) = 0 := by
    rw [val_main_call1_v0_apply, val_main_call1_cst_apply]
    exact Ideal.ofBits_zero_f32
  rw [val_main_v49_apply, val_main_v48_apply, val_main_v47_apply, val_main_v46_apply, e1, hz]
  rfl

/-- Layer 1 of the reference is the specification's layer over its input rows. -/
theorem layer1 :
    val_main_v49 (F := Ideal) x0 x1 x2 x3 = refLayer (R := EReal) (val_main_v16 (F := Ideal) x1) (val_main_v3 (F := Ideal) x1) (val_main_v6 (F := Ideal) x1) x0 x2 x3 := by
  funext i
  obtain ⟨n, c, rfl⟩ : ∃ (n : Fin 50000) (c : Fin 128), i = ix2 n c := ⟨i 0, i 1, eq_ix2 i⟩
  rw [v49_at, v45_at, refLayer_at]
  refine congrArg (fun t => max (t + x3 (ix1 c)) 0) (Finset.sum_congr rfl fun e _ => ?_)
  rw [v42_at, v17_at]

/-! ## Layer 2 -/

/-- The node factor of edge `e`'s source row. -/
theorem v57_at (e : Fin 650000) :
    val_main_v57 (F := Ideal) x1 (ix1 e) = (val_main_v16 (F := Ideal) x1) (ix1 (srcRow (val_main_v3 (F := Ideal) x1) e)) := by
  unfold val_main_v57
  rw [gatherVec_apply, v56_at]
  rfl

/-- The node factor of edge `e`'s destination row. -/
theorem v64_at (e : Fin 650000) :
    val_main_v64 (F := Ideal) x1 (ix1 e) = (val_main_v16 (F := Ideal) x1) (ix1 (dstRow (val_main_v6 (F := Ideal) x1) e)) := by
  unfold val_main_v64
  rw [gatherVec_apply, v63_at]
  rfl

/-- The projection at row `n`, column `c`: the contraction over the 128 features. -/
theorem v50_at (n : Fin 50000) (c : Fin 128) :
    val_main_v50 (F := Ideal) x0 x1 x2 x3 x4 (ix2 n c) = ∑ k : Fin 128, (val_main_v49 (F := Ideal) x0 x1 x2 x3) (ix2 n k) * x4 (ix2 k c) := by
  rw [val_main_v50_apply]
  refine Finset.sum_congr rfl fun k _ => ?_
  have el : lidx_main_v50 (ix2 n c) k = ix2 n k := funext fun a => Fin.ext (by match a with | ⟨0, _⟩ => rfl | ⟨1, _⟩ => rfl)
  have er : ridx_main_v50 (ix2 n c) k = ix2 k c := funext fun a => Fin.ext (by match a with | ⟨0, _⟩ => rfl | ⟨1, _⟩ => rfl)
  rw [el, er]

/-- Edge `e`'s gathered row is the projection's row at the edge's source row. -/
theorem v72_at (e : Fin 650000) (c : Fin 128) :
    val_main_v72 (F := Ideal) x0 x1 x2 x3 x4 (ix2 e c) = val_main_v50 (F := Ideal) x0 x1 x2 x3 x4 (ix2 (srcRow (val_main_v3 (F := Ideal) x1) e) c) := by
  unfold val_main_v72
  rw [gatherRows_apply, v71_at]
  rfl

/-- Edge `e`'s message at column `c`: the gathered row times the two end factors. -/
theorem v75_at (e : Fin 650000) (c : Fin 128) :
    val_main_v75 (F := Ideal) x0 x1 x2 x3 x4 (ix2 e c)
      = val_main_v50 (F := Ideal) x0 x1 x2 x3 x4 (ix2 (srcRow (val_main_v3 (F := Ideal) x1) e) c)
        * ((val_main_v16 (F := Ideal) x1) (ix1 (srcRow (val_main_v3 (F := Ideal) x1) e)) * (val_main_v16 (F := Ideal) x1) (ix1 (dstRow (val_main_v6 (F := Ideal) x1) e))) := by
  have e1 : idx_main_v73 (idx_main_v74 (ix2 e c)) = ix1 e := funext fun a => Fin.ext (by match a with | ⟨0, _⟩ => rfl)
  rw [val_main_v75_apply, val_main_v74_apply, val_main_v73_apply, e1, val_main_v65_apply,
    v57_at, v64_at, v72_at]
  rfl

/-- The word the scatter reads for edge `e` is its destination word. -/
theorem v77_at (e : Fin 650000) :
    val_main_v77 (F := Ideal) x1 (ix2 e (0 : Fin 1)) = (val_main_v6 (F := Ideal) x1) (ix1 e) := by
  have e1 : idx_main_v77 (ix2 e (0 : Fin 1)) = ix1 e := funext fun a => Fin.ext (by match a with | ⟨0, _⟩ => rfl)
  rw [val_main_v77_apply, e1]

/-- The aggregation at row `n`, column `c`: the messages of the edges that land on `n`, added to zero. -/
theorem v78_at (n : Fin 50000) (c : Fin 128) :
    val_main_v78 (F := Ideal) x0 x1 x2 x3 x4 (ix2 n c) = ∑ e ∈ into (val_main_v6 (F := Ideal) x1) n, val_main_v75 (F := Ideal) x0 x1 x2 x3 x4 (ix2 e c) := by
  have hz : val_main_v76 (F := Ideal) (ix2 n c) = 0 := by
    rw [val_main_v76_apply, val_main_cst_16_apply]
    exact Ideal.ofBits_zero_f32
  unfold val_main_v78
  rw [scatterRows_apply, hz, zero_add]
  exact Finset.sum_congr (Finset.filter_congr fun e _ => by rw [v77_at]) fun _ _ => rfl

/-- After the aggregation: the bias of the column is added and the result clipped at zero. -/
theorem v82_at (n : Fin 50000) (c : Fin 128) :
    val_main_v82 (F := Ideal) x0 x1 x2 x3 x4 x5 (ix2 n c) = max (val_main_v78 (F := Ideal) x0 x1 x2 x3 x4 (ix2 n c) + x5 (ix1 c)) 0 := by
  have e1 : idx_main_v79 (idx_main_v80 (ix2 n c)) = ix1 c := funext fun a => Fin.ext (by match a with | ⟨0, _⟩ => rfl)
  have hz : val_main_call2_v0 (F := Ideal) (ix2 n c) = 0 := by
    rw [val_main_call2_v0_apply, val_main_call2_cst_apply]
    exact Ideal.ofBits_zero_f32
  rw [val_main_v82_apply, val_main_v81_apply, val_main_v80_apply, val_main_v79_apply, e1, hz]
  rfl

/-- Layer 2 of the reference is the specification's layer over its input rows. -/
theorem layer2 :
    val_main_v82 (F := Ideal) x0 x1 x2 x3 x4 x5 = refLayer (R := EReal) (val_main_v16 (F := Ideal) x1) (val_main_v3 (F := Ideal) x1) (val_main_v6 (F := Ideal) x1) (val_main_v49 (F := Ideal) x0 x1 x2 x3) x4 x5 := by
  funext i
  obtain ⟨n, c, rfl⟩ : ∃ (n : Fin 50000) (c : Fin 128), i = ix2 n c := ⟨i 0, i 1, eq_ix2 i⟩
  rw [v82_at, v78_at, refLayer_at]
  refine congrArg (fun t => max (t + x5 (ix1 c)) 0) (Finset.sum_congr rfl fun e _ => ?_)
  rw [v75_at, v50_at]

/-! ## The two layers -/

/-- THE REFERENCE'S VALUE: the result array is the two layers in the reference's arrangement, over the program's own
    source words, destination words and node factors. -/
theorem ref_value (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    ReadP.val_main_v82 (F := Ideal) x0 x1 x2 x3 x4 x5
      = Cert.Gcn.referenceNet (ReadP.val_main_v16 (F := Ideal) x1) (ReadP.val_main_v3 (F := Ideal) x1)
          (ReadP.val_main_v6 (F := Ideal) x1) x0 x2 x3 x4 x5 := by
  rw [layer2, layer1]
  rfl

end Cert.ReferenceIdeal.RefValue

end
-- ==== Proof.RefDis.lean ====
/-
  The per-node factor of the graph layers is a real number at every node.

  The program counts, for node `i`, the edges whose destination word lands on `i`: a scatter-add of the constant one
  into zeros, so the count is a finite sum of ones, a natural number `q`. Where the count is positive the factor is
  `1 / √(max q 1)`, the reciprocal square root of a real number that is at least one; elsewhere it is zero. Which edges
  land on `i` plays no part.
-/
import proofs.«173331_j20340965114257_2_alg».proof.Proof.ReadP
import Idealize.ShloMosaic.Lib.IdealHost

noncomputable section

namespace Cert.ReferenceIdeal.RefDis

open Cert.ReferenceIdeal Cert.ReferenceIdeal.Gen Cert.ReferenceIdeal.ReadP Idealize.ShloMosaic Idealize.ShloMosaic.ValueIdx

/-- The coercion of the reals into the extended reals commutes with the maximum. -/
theorem coe_max (a b : ℝ) : ((max a b : ℝ) : EReal) = max (a : EReal) (b : EReal) :=
  Monotone.map_max EReal.coe_strictMono.monotone

/-- A finite sum of ones is the number of its terms, a real number. -/
theorem sum_ones {ι : Type} (S : Finset ι) (f : ι → EReal) (hf : ∀ j, f j = 1) :
    ∑ j ∈ S, f j = ((S.card : ℝ) : EReal) := by
  classical
  induction S using Finset.induction_on with
  | empty => simp
  | insert a s ha ih =>
    rw [Finset.sum_insert ha, ih, hf, Finset.card_insert_of_notMem ha, Nat.cast_add, Nat.cast_one, EReal.coe_add,
      EReal.coe_one, add_comm]

/-- A scatter-add of ones into a zero entry is a real number: the operand's zero plus one for every update that lands
    on the entry, whichever those are. -/
theorem scatterAdd_ones {s si su : Shape} (d : ScatterDims s si su) {w : Nat} (x : FVec Ideal s .f32) (idx : IVec si w)
    (upd : FVec Ideal su .f32) (i : s.Idx) (hx : x i = 0) (hu : ∀ j, upd j = 1) :
    ∃ q : ℝ, Host.scatterAdd d x idx upd i = (q : EReal) :=
  ⟨((Finset.univ.filter (fun j => d.resultIdx? j idx = some i)).card : ℝ), by
    show x i + ∑ j ∈ Finset.univ.filter (fun j => d.resultIdx? j idx = some i), upd j = _
    rw [hx, zero_add, sum_ones _ _ hu]⟩

/-- The count of the edges that land on node `i` is a real number. -/
theorem degree_real (x1 : (⟨S2x600000, .i32⟩ : BufTy).Contents (Elt Ideal)) (i : S50000.Idx) :
    ∃ q : ℝ, val_main_v10 (F := Ideal) x1 i = (q : EReal) := by
  unfold val_main_v10
  refine scatterAdd_ones _ _ _ _ i ?_ fun j => ?_
  · rw [val_main_v8_apply, val_main_cst_0_apply]
    exact Ideal.ofBits_zero_f32
  · rw [val_main_v7_apply, val_main_cst_apply]
    exact Ideal.ofBits_one_f32

/-- THE NODE FACTOR IS REAL: zero where no edge lands, else the reciprocal square root of a real number at least one. -/
theorem dis_real (x1 : (⟨S2x600000, .i32⟩ : BufTy).Contents (Elt Ideal)) (i : S50000.Idx) :
    ∃ r : ℝ, ReadP.val_main_v16 (F := Ideal) x1 i = (r : EReal) := by
  rw [val_main_v16_apply]
  by_cases hb : val_main_v12 (F := Ideal) x1 i = 1#1
  · obtain ⟨q, hq⟩ := degree_real x1 i
    have h13 : val_main_v13 (F := Ideal) i = ((1 : ℝ) : EReal) := by
      rw [val_main_v13_apply, val_main_cst_2_apply]
      exact Ideal.ofBits_one_f32.trans EReal.coe_one.symm
    have hpos : (0 : ℝ) < max q 1 := lt_of_lt_of_le one_pos (le_max_right _ _)
    rw [hb, select_one, val_main_v15_apply, Ideal.hostUnary_rsqrt_def, val_main_v14_apply, Ideal.maximumf_def, hq, h13,
      ← coe_max, Ideal.rsqrt_coe, if_neg (not_lt.mpr hpos.le), if_neg hpos.ne']
    exact ⟨_, rfl⟩
  · rw [eq_zero_of_ne_one hb, select_zero, val_main_call0_v1_apply, val_main_call0_v0_apply, val_main_cst_3_apply]
    exact ⟨0, Ideal.ofBits_zero_f32.trans EReal.coe_zero.symm⟩

end Cert.ReferenceIdeal.RefDis

end
-- ==== Proof.LibFiniteEntries.lean ====
/-
  "Every entry is finite", read back from its printed test.

  A precondition `jnp.all(|a| < +∞)` prints, for an argument `a` of any shape, as the comparison of `|a|` with the
  word of `+∞` broadcast from a scalar to the argument's shape, reduced by `and` over all axes from `1`; several such
  tests are joined by `and` on one-bit scalars.  On the extended reals `|x|` is `max x (−x)`, the word `0x7F800000` is
  `⊤`, and an extended real whose absolute value is below `⊤` is a real number.  So: a conjunction that is `1` has both
  conjuncts `1`, and a test that is `1` gives a real number at every entry of its argument.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.FiniteEntries

open Idealize.ShloMosaic Idealize.ShloMosaic.ValueIdx

/-- The rank-0 shape has one index. -/
instance : Subsingleton (⟨0, ![]⟩ : Shape).Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit scalars that is `1` has both conjuncts `1`. -/
theorem and_split {x y : IVec ⟨0, ![]⟩ 1} (h : andi x y ix0 = 1#1) : x ix0 = 1#1 ∧ y ix0 = 1#1 :=
  IntOp.andi_eq_one.1 h

/-- One argument's test: if "all `|a| < +∞`" came out `1`, every entry of `a` is real. -/
theorem entries_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1)
    (i : s.Idx) : ∃ r : ℝ, a i = (r : EReal) := by
  have h := Host.reduce_andi_all _ _ hr hu ix0 e i
  have h' : Ideal.cmp .olt (max (a i) (-(a i)))
      (broadcastInDim s ![] hb (constant (F := Ideal) ⟨0, ![]⟩ .f32 0x7F800000#32) i) = 1#1 := h
  rw [broadcastInDim_apply ![] hb _ i ix0 (fun ax => ax.elim0)] at h'
  have h'' : Ideal.cmp .olt (max (a i) (-(a i))) (Ideal.ofBits .f32 0x7F800000#32) = 1#1 := h'
  rw [ofBits_inf] at h''
  refine real_of_abs_lt_top (a i) ?_
  by_contra hn
  have : Ideal.cmp .olt (max (a i) (-(a i))) ⊤ = 0#1 := by
    unfold Ideal.cmp
    simp [hn]
  rw [this] at h''
  exact absurd h'' (by decide)

end Idealize.ShloMosaic.FiniteEntries

end
-- ==== Proof.Finite.lean ====
/-
  The precondition read back: every float argument's entries are real numbers.

  The printed precondition is the conjunction of five tests, one per float argument, each "all `|a| < +∞`"; it
  holds when the printed function's one-bit result is `1`. A conjunction that is `1` has both conjuncts `1`, and a
  test that is `1` gives a real number at every entry of its argument.
-/
import proofs.«173331_j20340965114257_2_alg».proof.Pre_finite_inputs
import proofs.«173331_j20340965114257_2_alg».proof.Proof.LibFiniteEntries

noncomputable section

namespace Cert.Pre_finite_inputs.Real

open Cert.Pre_finite_inputs Cert.Pre_finite_inputs.Facts Idealize.ShloMosaic Idealize.ShloMosaic.ValueIdx
open Idealize.ShloMosaic.FiniteEntries

variable [Facts]

theorem entries (a0 : FVec Ideal S50000x128 .f32) (a1 : IVec S2x600000 32) (a2 : FVec Ideal S128x128 .f32)
    (a3 : FVec Ideal S128 .f32) (a4 : FVec Ideal S128x128 .f32) (a5 : FVec Ideal S128 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ix0
  dsimp only [fn, fn_part1] at h0
  obtain ⟨h1, e5⟩ := and_split h0
  obtain ⟨h2, e4⟩ := and_split h1
  obtain ⟨h3, e3⟩ := and_split h2
  obtain ⟨e0, e2⟩ := and_split h3
  exact ⟨entries_real a0 bcast_S_S50000x128 reducesTo_S50000x128_S_d0_1 h_S_ e0,
    entries_real a2 bcast_S_S128x128 reducesTo_S128x128_S_d0_1 h_S_ e2,
    entries_real a3 bcast_S_S128 reducesTo_S128_S_d0 h_S_ e3,
    entries_real a4 bcast_S_S128x128 reducesTo_S128x128_S_d0_1 h_S_ e4,
    entries_real a5 bcast_S_S128 reducesTo_S128_S_d0 h_S_ e5⟩

end Cert.Pre_finite_inputs.Real

end
-- ==== Proof.lean ====
/-
  Two graph-convolution layers: a kernel program of three pallas_calls among host gathers and scatter-adds, against a
  plain reference, on the extended reals.

  With `d` the node factors (the inverse square root of the in-degree), `γ e` and `δ e` the source and destination row of
  edge `e`, one layer of the reference is
      out[n, j] = max (∑_{e lands on n} (∑_k X[γ e, k] · W[k, j]) · (d[γ e] · d[δ e]) + b[j]) 0,
  and the kernel's program computes the same layer as
      out[n, j] = max (d[n] · ∑_{e lands on n} (∑_k (X[γ e, k] · d[γ e]) · W[k, j]) + b[j]) 0,
  the source factor applied to the rows before the projection (inside the first and second pallas_call) and the
  destination factor after the aggregation (inside the second and third). The two agree over the real numbers: an edge
  that lands on `n` has destination row `n`, and a factor moves across a finite sum. On the extended reals that move
  needs finite entries; the precondition gives them for the five float arguments, and the node factors are real
  because a degree is a natural number.

  The pieces: the kernel program's run with its result named and that result read back to the arguments (three
  regions, each the restriction of one whole-array function to ten row blocks, joined by the host aggregation); the
  reference's run read one operation at a time; the index arrays and node factors, which both programs compute by the
  same operations; the law between the two arrangements.
-/
import proofs.«173331_j20340965114257_2_alg».proof.Defs
import proofs.«173331_j20340965114257_2_alg».proof.Proof.Gen.Kernel
import proofs.«173331_j20340965114257_2_alg».proof.Proof.Gen.Kernel.Skeleton
import proofs.«173331_j20340965114257_2_alg».proof.Proof.Gen.Kernel.Launch
import proofs.«173331_j20340965114257_2_alg».proof.Proof.Gen.Kernel.Points
import proofs.«173331_j20340965114257_2_alg».proof.Proof.Gen.Kernel.Frame
import proofs.«173331_j20340965114257_2_alg».proof.Proof.Gen.KernelIdeal
import proofs.«173331_j20340965114257_2_alg».proof.Proof.Gen.KernelIdeal.Skeleton
import proofs.«173331_j20340965114257_2_alg».proof.Proof.Gen.KernelIdeal.Launch
import proofs.«173331_j20340965114257_2_alg».proof.Proof.Gen.KernelIdeal.Points
import proofs.«173331_j20340965114257_2_alg».proof.Proof.Gen.KernelIdeal.Frame
import proofs.«173331_j20340965114257_2_alg».proof.Proof.Gen.ReferenceIdeal
import proofs.«173331_j20340965114257_2_alg».proof.Proof.Gen.Pre_finite_inputs
import proofs.«173331_j20340965114257_2_alg».proof.Proof.RunP
import proofs.«173331_j20340965114257_2_alg».proof.Proof.ReadP
import proofs.«173331_j20340965114257_2_alg».proof.Proof.GcnSpec
import proofs.«173331_j20340965114257_2_alg».proof.Proof.KRun
import proofs.«173331_j20340965114257_2_alg».proof.Proof.KHost
import proofs.«173331_j20340965114257_2_alg».proof.Proof.KChain
import proofs.«173331_j20340965114257_2_alg».proof.Proof.RefValue
import proofs.«173331_j20340965114257_2_alg».proof.Proof.RefDis
import proofs.«173331_j20340965114257_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame. -/
theorem frame_kernel [Cert.Kernel.Facts] [Cert.Pre_finite_inputs.Facts] : Cert.frame_Kernel :=
  fun m ρ _ => Cert.Kernel.Gen.frame m ρ

/-- The idealized kernel program runs and leaves its arguments: the generated frame. -/
theorem frame_kernelIdeal [Cert.KernelIdeal.Facts] [Cert.Pre_finite_inputs.Facts] : Cert.frame_KernelIdeal :=
  fun m ρ _ => Cert.KernelIdeal.Gen.frame m ρ

/-- The idealized reference runs and leaves its arguments: its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- From memories that agree on the arguments both idealized programs end with the same result: the kernel's
    arrangement of the two layers of the shared node factors, index arrays and arguments, which is the reference's. -/
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  refine ⟨fun c => (Cert.Gcn.kernelNet (R := EReal) (Cert.KernelIdeal.Host.disK m ρ c) (Cert.KernelIdeal.Host.srcK m ρ c)
      (Cert.KernelIdeal.Host.dstK m ρ c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
        : Cert.KernelIdeal.S50000x128.Idx → EReal), ?_, ?_⟩
  · exact (θ_run Cert.KernelIdeal.defs _ _).mono
      (fun r h c => ⟨(h c).1.trans (Cert.KernelIdeal.Host.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨hx, hW1, hb1, hW2, hb2⟩ := Cert.Pre_finite_inputs.Real.entries _ _ _ _ _ _ (hpre c)
    rw [Cert.ReferenceIdeal.ReadP.val_main_v82_eq, Cert.ReferenceIdeal.RefValue.ref_value,
      (hagree c).1, (hagree c).2.1, (hagree c).2.2.1, (hagree c).2.2.2.1, (hagree c).2.2.2.2.1, (hagree c).2.2.2.2.2]
    beta_reduce
    rw [show Cert.KernelIdeal.Host.disK m ρ c = _ from Cert.KernelIdeal.Chain.dis_eq m ρ c,
      show Cert.KernelIdeal.Host.srcK m ρ c = _ from Cert.KernelIdeal.Chain.src_eq m ρ c,
      show Cert.KernelIdeal.Host.dstK m ρ c = _ from Cert.KernelIdeal.Chain.dst_eq m ρ c]
    exact (Cert.Gcn.kernelNet_eq_referenceNet _ _ _ _ _ _ _ _
      (fun n => Cert.ReferenceIdeal.RefDis.dis_real _ n) hx hW1 hb1 hW2 hb2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
